-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : IVec S50000 32) (main_arg3 : FVec F S3x128x128 .f32) (main_arg4 : FVec F S3x128x128 .f32) (main_arg5 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S256 : Shape := ⟨1, ![256]⟩
abbrev S256x128 : Shape := ⟨2, ![256, 128]⟩
abbrev S256x1 : Shape := ⟨2, ![256, 1]⟩

abbrev nBuf : Space → Nat
  | .hbm => 112
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S3x128x128, .f32⟩
  | .hbm, ⟨23, _⟩ => ⟨S3x128x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128x128, .f32⟩
  | .hbm, ⟨41, _⟩ => ⟨S128x128, .f32⟩
  | .hbm, ⟨42, _⟩ => ⟨S1x128x128, .f32⟩
  | .hbm, ⟨43, _⟩ => ⟨S128x128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x128x128, .f32⟩
  | .hbm, ⟨65, _⟩ => ⟨S128x128, .f32⟩
  | .hbm, ⟨66, _⟩ => ⟨S1x128x128, .f32⟩
  | .hbm, ⟨67, _⟩ => ⟨S128x128, .f32⟩
  | .hbm, ⟨68, _⟩ => ⟨S1x128, .f32⟩
  | .hbm, ⟨69, _⟩ => ⟨S128, .f32⟩
  | .hbm, ⟨70, _⟩ => ⟨S1x128, .f32⟩
  | .hbm, ⟨71, _⟩ => ⟨S50000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S1x128x128, .f32⟩
  | .hbm, ⟨89, _⟩ => ⟨S128x128, .f32⟩
  | .hbm, ⟨90, _⟩ => ⟨S1x128x128, .f32⟩
  | .hbm, ⟨91, _⟩ => ⟨S128x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S50000x128, .f32⟩
  | .hbm, ⟨96, _⟩ => ⟨S_, .f32⟩
  | .hbm, ⟨97, _⟩ => ⟨S50000, .f32⟩
  | .hbm, ⟨98, _⟩ => ⟨S_, .f32⟩
  | .hbm, ⟨99, _⟩ => ⟨S256, .f32⟩
  | .hbm, ⟨100, _⟩ => ⟨S50000x1, .i32⟩
  | .hbm, ⟨101, _⟩ => ⟨S256, .f32⟩
  | .hbm, ⟨102, _⟩ => ⟨S_, .f32⟩
  | .hbm, ⟨103, _⟩ => ⟨S256x128, .f32⟩
  | .hbm, ⟨104, _⟩ => ⟨S50000x1, .i32⟩
  | .hbm, ⟨105, _⟩ => ⟨S256x128, .f32⟩
  | .hbm, ⟨106, _⟩ => ⟨S_, .f32⟩
  | .hbm, ⟨107, _⟩ => ⟨S256, .f32⟩
  | .hbm, ⟨108, _⟩ => ⟨S256, .f32⟩
  | .hbm, ⟨109, _⟩ => ⟨S256x1, .f32⟩
  | .hbm, ⟨110, _⟩ => ⟨S256x128, .f32⟩
  | .hbm, ⟨111, _⟩ => ⟨S256x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_8 : Ref sig .tc := ⟨.hbm, 72, rfl⟩
abbrev main_v56 : Ref sig .tc := ⟨.hbm, 73, rfl⟩
abbrev main_v57 : Ref sig .tc := ⟨.hbm, 74, rfl⟩
abbrev main_c_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_13 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_14 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  transposes_S3x128x128_S3x128x128_0_2_1 : S3x128x128.Transposes [0, 2, 1] S3x128x128
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256 : S_.BroadcastsInDim S256 (![] : Fin 0 → Fin S256.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S256_S50000x1_S50000_n_0_0_1_wf : ScatterDims.WF S256 S50000x1 S50000 [] [0] [0] 1
  scatter_S256x128_S50000x1_S50000x128_1_0_0_1_wf : ScatterDims.WF S256x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v70) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S256 : Shape := ⟨1, ![256]⟩
abbrev S256x128 : Shape := ⟨2, ![256, 128]⟩
abbrev S256x1 : Shape := ⟨2, ![256, 1]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128x128, .f32⟩
  | 5 => ⟨S3x128, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S50000x1, .f32⟩
  | 36 => ⟨S50000x128, .f32⟩
  | 37 => ⟨S50000x128, .f32⟩
  | 38 => ⟨S1x128x128, .f32⟩
  | 39 => ⟨S128x128, .f32⟩
  | 40 => ⟨S128x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x128x128, .f32⟩
  | 48 => ⟨S128x128, .f32⟩
  | 49 => ⟨S128x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S50000x1, .f32⟩
  | 69 => ⟨S50000x128, .f32⟩
  | 70 => ⟨S50000x128, .f32⟩
  | 71 => ⟨S1x128x128, .f32⟩
  | 72 => ⟨S128x128, .f32⟩
  | 73 => ⟨S128x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S1x128x128, .f32⟩
  | 81 => ⟨S128x128, .f32⟩
  | 82 => ⟨S128x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S50000x1, .f32⟩
  | 102 => ⟨S50000x128, .f32⟩
  | 103 => ⟨S50000x128, .f32⟩
  | 104 => ⟨S1x128x128, .f32⟩
  | 105 => ⟨S128x128, .f32⟩
  | 106 => ⟨S128x128, .f32⟩
  | 107 => ⟨S50000x128, .f32⟩
  | 108 => ⟨S1x128, .f32⟩
  | 109 => ⟨S128, .f32⟩
  | 110 => ⟨S1x128, .f32⟩
  | 111 => ⟨S50000x128, .f32⟩
  | 112 => ⟨S50000x128, .f32⟩
  | 113 => ⟨S1x128x128, .f32⟩
  | 114 => ⟨S128x128, .f32⟩
  | 115 => ⟨S128x128, .f32⟩
  | 116 => ⟨S50000x128, .f32⟩
  | 117 => ⟨S50000x128, .f32⟩
  | 118 => ⟨S_, .f32⟩
  | 119 => ⟨S50000, .f32⟩
  | 120 => ⟨S_, .f32⟩
  | 121 => ⟨S256, .f32⟩
  | 122 => ⟨S50000x1, .i32⟩
  | 123 => ⟨S256, .f32⟩
  | 124 => ⟨S_, .f32⟩
  | 125 => ⟨S256x128, .f32⟩
  | 126 => ⟨S50000x1, .i32⟩
  | 127 => ⟨S256x128, .f32⟩
  | _ => ⟨S50000x128, .f32⟩

abbrev hbmTy0_1 (i : Nat) : BufTy := match i % 128 with
  | 0 => ⟨S_, .f32⟩
  | 1 => ⟨S256, .f32⟩
  | 2 => ⟨S256, .f32⟩
  | 3 => ⟨S256x1, .f32⟩
  | 4 => ⟨S256x128, .f32⟩
  | 5 => ⟨S256x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_cst : Ref sig .tc := ⟨.hbm, 52, rfl⟩
abbrev main_call0_v0 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_call1_cst : Ref sig .tc := ⟨.hbm, 85, rfl⟩
abbrev main_call1_v0 : Ref sig .tc := ⟨.hbm, 86, rfl⟩
abbrev main_v67 : Ref sig .tc := ⟨.hbm, 87, rfl⟩
abbrev main_c_8 : Ref sig .tc := ⟨.hbm, 88, rfl⟩
abbrev main_v68 : Ref sig .tc := ⟨.hbm, 89, rfl⟩
abbrev main_v69 : Ref sig .tc := ⟨.hbm, 90, rfl⟩
abbrev main_c_9 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_10 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_11 : Ref sig .tc := ⟨.hbm, 118, rfl⟩
abbrev main_v95 : Ref sig .tc := ⟨.hbm, 119, rfl⟩
abbrev main_cst_12 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_13 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_14 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256 : S_.BroadcastsInDim S256 (![] : Fin 0 → Fin S256.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256_S50000x1_S50000_n_0_0_1_wf : ScatterDims.WF S256 S50000x1 S50000 [] [0] [0] 1
  scatter_S256x128_S50000x1_S50000x128_1_0_0_1_wf : ScatterDims.WF S256x128 S50000x1 S50000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf

class Facts : Prop extends Facts₀ where

variable [Facts]
-- ==== Proof.KRun.lean ====
/- The idealized kernel's run with its RESULT named.

   The program is three launches of the dense layer between four stretches of host operations.  The generated
   frame follows the contents of every buffer from the launch memory through these seven segments
   (`Gen.W0` … `Gen.W7`) but keeps, of the final state, only that the argument arrays are unchanged.  Here the
   same run is read once more, keeping in addition that the result buffer ends at the last boundary's contents
   `Gen.W7 m ρ c` of it: a value that the later modules compute as a function of the arguments. -/
import proofs.«109006_j65773129171089_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the pooled result at the last boundary's
    contents and the six argument arrays as launched. -/
theorem run : θ_run defs (onTc (τ := τ) (main (F := F))) ⟨m, fun _ => 0, ρ⟩ (fun r => ∀ c : Dev nD,
      r.2.mem ((c.tc : Thread nD τ).loc main_v88) = W7 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v88 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KRun

end
-- ==== Proof.LayerSpec.lean ====
/- One GraphSAGE layer as a function of its five operands, entry by entry.

   A layer takes the aggregated neighbour features `a` and the node features `h` (one row per node, 128 columns), two
   128 × 128 weight matrices `wl`, `wr` stored with the CONTRACTED index first, and a bias row `b`, and produces

       lin a h wl wr b p q = (∑ k, a[p,k] · wl[k,q]) + (∑ k, h[p,k] · wr[k,q]) + b[0,q].

   The first two layers clamp this below by zero.  Both programs compute this same number; they only group the three
   summands differently, and addition of extended reals is commutative and associative. -/
import Idealize.ShloMosaic.Lib.ValueIdx
import Idealize.ShloMosaic.Lib.Pipeline.Value
import Idealize.ShloMosaic.PureOps.Ideal.Laws

noncomputable section

namespace Cert.Sage

open Idealize.ShloMosaic Idealize.ShloMosaic.ValueIdx

/-- The pre-activation of one layer at row `p`, column `q` (rows of any count `n`: a block of rows or all of them). -/
def lin {n : Nat} (a h : (⟨2, ![n, 128]⟩ : Shape).Idx → EReal) (wl wr : (⟨2, ![128, 128]⟩ : Shape).Idx → EReal)
    (b : (⟨2, ![1, 128]⟩ : Shape).Idx → EReal) (p : Fin n) (q : Fin 128) : EReal :=
  (∑ k : Fin 128, a (ix2 p k) * wl (ix2 k q)) + (∑ k : Fin 128, h (ix2 p k) * wr (ix2 k q)) + b (ix2 (0 : Fin 1) q)

/-- A layer's output array: the pre-activation, clamped below by `z` when `relu` is set. -/
def layer (relu : Bool) (z : EReal) {n : Nat} (a h : (⟨2, ![n, 128]⟩ : Shape).Idx → EReal)
    (wl wr : (⟨2, ![128, 128]⟩ : Shape).Idx → EReal) (b : (⟨2, ![1, 128]⟩ : Shape).Idx → EReal) :
    (⟨2, ![n, 128]⟩ : Shape).Idx → EReal :=
  fun i => if relu then max (lin a h wl wr b (i 0) (i 1)) z else lin a h wl wr b (i 0) (i 1)

theorem layer_relu_ix2 (z : EReal) {n : Nat} (a h : (⟨2, ![n, 128]⟩ : Shape).Idx → EReal)
    (wl wr : (⟨2, ![128, 128]⟩ : Shape).Idx → EReal) (b : (⟨2, ![1, 128]⟩ : Shape).Idx → EReal) (p : Fin n) (q : Fin 128) :
    layer true z a h wl wr b (ix2 p q) = max (lin a h wl wr b p q) z := rfl

theorem layer_lin_ix2 (z : EReal) {n : Nat} (a h : (⟨2, ![n, 128]⟩ : Shape).Idx → EReal)
    (wl wr : (⟨2, ![128, 128]⟩ : Shape).Idx → EReal) (b : (⟨2, ![1, 128]⟩ : Shape).Idx → EReal) (p : Fin n) (q : Fin 128) :
    layer false z a h wl wr b (ix2 p q) = lin a h wl wr b p q := rfl

/-- The other grouping of the three summands: the bias added before the second product. -/
theorem lin_eq_bias_between {n : Nat} (a h : (⟨2, ![n, 128]⟩ : Shape).Idx → EReal)
    (wl wr : (⟨2, ![128, 128]⟩ : Shape).Idx → EReal) (b : (⟨2, ![1, 128]⟩ : Shape).Idx → EReal) (p : Fin n) (q : Fin 128) :
    (∑ k : Fin 128, a (ix2 p k) * wl (ix2 k q)) + b (ix2 (0 : Fin 1) q) + (∑ k : Fin 128, h (ix2 p k) * wr (ix2 k q))
      = lin a h wl wr b p q := by
  unfold lin
  exact add_right_comm _ _ _

end Cert.Sage

end
-- ==== Proof.KPayload.lean ====
/- The dense layer's body, read at an entry.

   The body loads a block of 5000 rows of the aggregated features and of the node features, the two weight matrices and
   the bias row, multiplies on the matrix unit into a zero accumulator (the change of float format in front of it is the
   identity on extended reals), adds the two products and the broadcast bias, and — in the first two layers — clamps at
   zero.  At row `p`, column `q` of the block this is `Cert.Sage.lin` of the loaded blocks, clamped or not. -/
import proofs.«109006_j65773129171089_1_alg».proof.Proof.Gen.KernelIdeal.Skeleton
import proofs.«109006_j65773129171089_1_alg».proof.Proof.LayerSpec

noncomputable section

namespace Cert.KernelIdeal.Body

open Cert.KernelIdeal Cert.KernelIdeal.Gen Idealize.ShloMosaic Idealize.ShloMosaic.ValueIdx Cert.Sage

/-! ## The matrix product's operand indices: rows by contraction, contraction by columns -/

theorem lhs_row (i : S5000x128.Idx) (r : dot_S5000x128_S128x128_S5000x128_1_0_0_1_n_n.contr.Idx) : (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (r : dot_S5000x128_S128x128_S5000x128_1_0_0_1_n_n.contr.Idx) : (dot_S5000x128_S128x128_S5000x128_1_0_0_1_n_n.lhsIdx i r 1).val = (r ⟨0, by decide⟩).val :=
  dot_S5000x128_S128x128_S5000x128_1_0_0_1_n_n.lhsIdx_val_of_single rfl i r
theorem rhs_contr (i : S5000x128.Idx) (r : dot_S5000x128_S128x128_S5000x128_1_0_0_1_n_n.contr.Idx) : (dot_S5000x128_S128x128_S5000x128_1_0_0_1_n_n.rhsIdx i r 0).val = (r ⟨0, by decide⟩).val :=
  dot_S5000x128_S128x128_S5000x128_1_0_0_1_n_n.rhsIdx_val_of_single rfl i r
theorem rhs_col (i : S5000x128.Idx) (r : dot_S5000x128_S128x128_S5000x128_1_0_0_1_n_n.contr.Idx) : (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into a zero accumulator, at row `p` and column `q`: the sum over the 128 contracted
    positions of the row's entry times the column's. -/
theorem product_at {φ₁ φ₂ : FTy} (x : FVec Ideal S5000x128 φ₁) (w : FVec Ideal S128x128 φ₂) (p : Fin 5000) (q : Fin 128) :
    FloatOps.matmul dot_S5000x128_S128x128_S5000x128_1_0_0_1_n_n none x w (constant S5000x128 .f32 0x00000000#32) (ix2 p q)
      = ∑ k : Fin 128, x (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The bias row broadcast down the block, at an entry: the row's entry in that column. -/
theorem bias_at (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => by
    match a with
    | ⟨0, _⟩ => rfl
    | ⟨1, _⟩ => rfl)

/-- The sum of the two products and the bias, at an entry. -/
theorem sum_at (x h : FVec Ideal S5000x128 .f32) (wl wr : FVec Ideal S128x128 .f32) (b : FVec Ideal S1x128 .f32)
    (p : Fin 5000) (q : Fin 128) :
    (FloatOps.matmul dot_S5000x128_S128x128_S5000x128_1_0_0_1_n_n none (truncf .bf16 x bitsLt_bf16_f32 : FVec Ideal S5000x128 .bf16) (truncf .bf16 wl bitsLt_bf16_f32 : FVec Ideal S128x128 .bf16) (constant S5000x128 .f32 0x00000000#32) (ix2 p q)
      + FloatOps.matmul dot_S5000x128_S128x128_S5000x128_1_0_0_1_n_n none (truncf .bf16 h bitsLt_bf16_f32 : FVec Ideal S5000x128 .bf16) (truncf .bf16 wr bitsLt_bf16_f32 : FVec Ideal S128x128 .bf16) (constant S5000x128 .f32 0x00000000#32) (ix2 p q))
      + broadcastTo S5000x128 b broadcasts_S1x128_S5000x128 (ix2 p q)
      = lin x h wl wr b p q := by
  rw [product_at, product_at, bias_at]
  rfl

/-- Layer 0's stored value at an entry. -/
theorem pay0_at (x h : FVec Ideal S5000x128 .f32) (wl wr : FVec Ideal S128x128 .f32) (b : FVec Ideal S1x128 .f32)
    (p : Fin 5000) (q : Fin 128) :
    k0_pay1 (F := Ideal) x h wl wr b (ix2 p q) = max (lin x h wl wr b p q) (Ideal.ofBits .f32 0x00000000#32) := by
  unfold k0_pay1
  simp only [shapeCast_self]
  exact congrArg (max · (Ideal.ofBits .f32 0x00000000#32)) (sum_at x h wl wr b p q)

/-- Layer 1's stored value at an entry. -/
theorem pay1_at (x h : FVec Ideal S5000x128 .f32) (wl wr : FVec Ideal S128x128 .f32) (b : FVec Ideal S1x128 .f32)
    (p : Fin 5000) (q : Fin 128) :
    k1_pay1 (F := Ideal) x h wl wr b (ix2 p q) = max (lin x h wl wr b p q) (Ideal.ofBits .f32 0x00000000#32) := by
  unfold k1_pay1
  simp only [shapeCast_self]
  exact congrArg (max · (Ideal.ofBits .f32 0x00000000#32)) (sum_at x h wl wr b p q)

/-- Layer 2's stored value at an entry: no clamp. -/
theorem pay2_at (x h : FVec Ideal S5000x128 .f32) (wl wr : FVec Ideal S128x128 .f32) (b : FVec Ideal S1x128 .f32)
    (p : Fin 5000) (q : Fin 128) :
    k2_pay1 (F := Ideal) x h wl wr b (ix2 p q) = lin x h wl wr b p q := by
  unfold k2_pay1
  simp only [shapeCast_self]
  exact sum_at x h wl wr b p q

end Cert.KernelIdeal.Body

end
-- ==== Proof.Region0.lean ====
/- Launch 0 of the dense layer, as one function of the arrays it finds.

   The grid has ten points; point `t` reads rows 5000·t … 5000·t + 4999 of the aggregated features and of the node
   features, the whole of both weight matrices and of the bias row, and writes back the same rows of the output.  Each
   point's block of the output is therefore the block of ONE whole-array function, `Cert.Sage.layer` of the five input
   arrays, and the ten blocks cover the 50000 rows: the output array ends at that function. -/
import proofs.«109006_j65773129171089_1_alg».proof.Proof.Gen.KernelIdeal.Frame
import proofs.«109006_j65773129171089_1_alg».proof.Proof.KPayload

set_option maxRecDepth 16384

noncomputable section

namespace Cert.KernelIdeal.Region0

open Cert.KernelIdeal Cert.KernelIdeal.Gen Idealize.ShloMosaic Idealize.ShloMosaic.TcCoe Idealize.ShloMosaic.ValueIdx Cert.Sage
open Idealize.ShloMosaic.Pipeline (Dat Cfg Window)

variable (V : (c : Dev nD) → (b : Ref sig .tc) → Buf (Elt Ideal) ((c : Thread nD τ).loc b))

/-- The float zero the first two layers clamp at. -/
abbrev zero : EReal := Ideal.ofBits .f32 0x00000000#32

theorem offs_zero : (![0, 0] : Fin 2 → Nat) = fun _ => 0 := funext fun a => by fin_cases a <;> rfl

/-- The printed index maps over the grid: the row windows (two inputs and the output) are at block `t` of the rows
    and block 0 of the columns; the weights and the bias stay at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row 5000·t + p of the array. -/
def row (t : Fin cfg0.N) (p : Fin 5000) : Fin 50000 :=
  ⟨5000 * t.val + p.val, by have ht : t.val < grid0.N := t.isLt; have hN : grid0.N = 10 := N_0; have hp := p.isLt; omega⟩

/-! ## Each window's block at a point, read off its array -/

theorem read_agg (c : Dev nD) (t : Fin cfg0.N) (p : Fin 5000) (k : Fin 128) :
    iblk0 V c 0 t (ix2 p k) = V c main_v26 (ix2 (row t p) k) := by
  obtain ⟨e0, e1, -⟩ := index_facts t
  show V c main_v26 (((cfg0.win 0).blk t).view.emb (ix2 p k)) = V c main_v26 (ix2 (row t p) k)
  refine congrArg (V c main_v26) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

theorem read_h (c : Dev nD) (t : Fin cfg0.N) (p : Fin 5000) (k : Fin 128) :
    iblk0 V c 1 t (ix2 p k) = V c main_arg0 (ix2 (row t p) k) := by
  obtain ⟨-, -, e0, e1, -⟩ := index_facts t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

theorem read_wl (c : Dev nD) (t : Fin cfg0.N) (k q : Fin 128) :
    iblk0 V c 2 t (ix2 k q) = V c main_v28 (ix2 k q) := by
  obtain ⟨-, -, -, -, e0, e1, -⟩ := index_facts t
  show V c main_v28 (((cfg0.win 2).blk t).view.emb (ix2 k q)) = V c main_v28 (ix2 k q)
  refine congrArg (V c main_v28) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem read_wr (c : Dev nD) (t : Fin cfg0.N) (k q : Fin 128) :
    iblk0 V c 3 t (ix2 k q) = V c main_v30 (ix2 k q) := by
  obtain ⟨-, -, -, -, -, -, e0, e1, -⟩ := index_facts t
  show V c main_v30 (((cfg0.win 3).blk t).view.emb (ix2 k q)) = V c main_v30 (ix2 k q)
  refine congrArg (V c main_v30) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem read_b (c : Dev nD) (t : Fin cfg0.N) (q : Fin 128) :
    iblk0 V c 4 t (ix2 (0 : Fin 1) q) = V c main_v33 (ix2 (0 : Fin 1) q) := by
  obtain ⟨-, -, -, -, -, -, -, -, e0, e1, -⟩ := index_facts t
  show V c main_v33 (((cfg0.win 4).blk t).view.emb (ix2 (0 : Fin 1) q)) = V c main_v33 (ix2 (0 : Fin 1) q)
  refine congrArg (V c main_v33) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The layer's pre-activation of the blocks at point `t`, row `p`, is that of the arrays at row 5000·t + p. -/
theorem lin_blocks (c : Dev nD) (t : Fin cfg0.N) (p : Fin 5000) (q : Fin 128) :
    lin (iblk0 V c 0 t) (iblk0 V c 1 t) (iblk0 V c 2 t) (iblk0 V c 3 t) (iblk0 V c 4 t) p q
      = lin (n := 50000) (V c main_v26) (V c main_arg0) (V c main_v28) (V c main_v30) (V c main_v33) (row t p) q := by
  unfold lin
  rw [read_b V c t q]
  refine congrArg₂ (· + ·) (congrArg₂ (· + ·) (Finset.sum_congr rfl fun k _ => ?_) (Finset.sum_congr rfl fun k _ => ?_)) rfl
  · rw [read_agg V c t p k, read_wl V c t k q]
  · rw [read_h V c t p k, read_wr V c t k q]

/-- WHAT POINT `t` WRITES BACK is block `t` of the layer function of the arrays as the launch finds them. -/
theorem flushed_eq (c : Dev nD) (t : Fin cfg0.N) :
    (dat0 V c).flushed 5 t = ((cfg0.win 5).blk t).view.read (Elt Ideal)
      (layer true zero (n := 50000) (V c main_v26) (V c main_arg0) (V c main_v28) (V c main_v30) (V c main_v33)) := by
  show (cfg0.win 5).cut (grid0.coords t) ((dat0 V c).after 5 t) = _
  rw [after0_5]
  unfold out0_5
  rw [View.canon_unit_zero offs_zero]
  simp only [View.ld_unit_zero (S := S5000x128) offs_zero, View.ld_unit_zero (S := S128x128) offs_zero, View.ld_unit_zero (S := S1x128) offs_zero]
  funext j
  obtain ⟨p, q, rfl⟩ : ∃ (p : Fin 5000) (q : Fin 128), j = ix2 p q := ⟨j 0, j 1, eq_ix2 j⟩
  obtain ⟨-, -, -, -, -, -, -, -, -, -, e0, e1⟩ := index_facts t
  have hemb : ((cfg0.win 5).blk t).view.emb (ix2 p q) = ix2 (row t p) q := funext fun a => Fin.ext (by
    match a with
    | ⟨0, _⟩ => show win0_5.index t (0 : Fin 2) * 5000 + 1 * p.val = 5000 * t.val + p.val; omega
    | ⟨1, _⟩ => show win0_5.index t (1 : Fin 2) * 128 + 1 * q.val = q.val; omega)
  show k0_pay1 (F := Ideal) (iblk0 V c 0 t) (iblk0 V c 1 t) (iblk0 V c 2 t) (iblk0 V c 3 t) (iblk0 V c 4 t) (ix2 p q)
    = layer true zero (n := 50000) (V c main_v26) (V c main_arg0) (V c main_v28) (V c main_v30) (V c main_v33) (((cfg0.win 5).blk t).view.emb (ix2 p q))
  rw [hemb, layer_relu_ix2, ← lin_blocks V c t p q]
  exact Body.pay0_at (iblk0 V c 0 t) (iblk0 V c 1 t) (iblk0 V c 2 t) (iblk0 V c 3 t) (iblk0 V c 4 t) p q

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v34).slice (win0_5.rect t)).set ↔ _
  rw [View.set_slice_whole, Rect.mem_set_unit]
  exact Iff.rfl

/-- Every row is in the block of the point 5000 divides it into. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have ht : (i 0).val / 5000 < cfg0.N := by show (i 0).val / 5000 < grid0.N; omega
  obtain ⟨-, -, -, -, -, -, -, -, -, -, e0, e1⟩ := index_facts ⟨(i 0).val / 5000, ht⟩
  have e0' : win0_5.index ⟨(i 0).val / 5000, ht⟩ (0 : Fin 2) = (i 0).val / 5000 := e0
  refine ⟨⟨(i 0).val / 5000, ht⟩, flush0_5 _, ?_⟩
  rw [mem_blk]
  intro a
  match a with
  | ⟨0, _⟩ => show win0_5.index ⟨(i 0).val / 5000, ht⟩ (0 : Fin 2) * 5000 ≤ (i 0).val ∧ (i 0).val < win0_5.index ⟨(i 0).val / 5000, ht⟩ (0 : Fin 2) * 5000 + 5000; omega
  | ⟨1, _⟩ => show win0_5.index ⟨(i 0).val / 5000, ht⟩ (1 : Fin 2) * 128 ≤ (i 1).val ∧ (i 1).val < win0_5.index ⟨(i 0).val / 5000, ht⟩ (1 : Fin 2) * 128 + 128; omega

/-- THE OUTPUT ARRAY after the launch: the layer function of the five input arrays as the launch finds them. -/
theorem final (c : Dev nD) :
    (dat0 V c).arrAt 5 cfg0.N
      = layer true zero (n := 50000) (V c main_v26) (V c main_arg0) (V c main_v28) (V c main_v30) (V c main_v33) :=
  (dat0 V c).arrAt_eq_of_cover 5 _ (fun t _ => flushed_eq V c t) cover

end Cert.KernelIdeal.Region0

end
-- ==== Proof.Region1.lean ====
/- Launch 1 of the dense layer, as one function of the arrays it finds.

   The grid has ten points; point `t` reads rows 5000·t … 5000·t + 4999 of the aggregated features and of the node
   features, the whole of both weight matrices and of the bias row, and writes back the same rows of the output.  Each
   point's block of the output is therefore the block of ONE whole-array function, `Cert.Sage.layer` of the five input
   arrays, and the ten blocks cover the 50000 rows: the output array ends at that function. -/
import proofs.«109006_j65773129171089_1_alg».proof.Proof.Gen.KernelIdeal.Frame
import proofs.«109006_j65773129171089_1_alg».proof.Proof.KPayload

set_option maxRecDepth 16384

noncomputable section

namespace Cert.KernelIdeal.Region1

open Cert.KernelIdeal Cert.KernelIdeal.Gen Idealize.ShloMosaic Idealize.ShloMosaic.TcCoe Idealize.ShloMosaic.ValueIdx Cert.Sage
open Idealize.ShloMosaic.Pipeline (Dat Cfg Window)

variable (V : (c : Dev nD) → (b : Ref sig .tc) → Buf (Elt Ideal) ((c : Thread nD τ).loc b))

/-- The float zero the first two layers clamp at. -/
abbrev zero : EReal := Ideal.ofBits .f32 0x00000000#32

theorem offs_zero : (![0, 0] : Fin 2 → Nat) = fun _ => 0 := funext fun a => by fin_cases a <;> rfl

/-- The printed index maps over the grid: the row windows (two inputs and the output) are at block `t` of the rows
    and block 0 of the columns; the weights and the bias stay at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row 5000·t + p of the array. -/
def row (t : Fin cfg1.N) (p : Fin 5000) : Fin 50000 :=
  ⟨5000 * t.val + p.val, by have ht : t.val < grid1.N := t.isLt; have hN : grid1.N = 10 := N_1; have hp := p.isLt; omega⟩

/-! ## Each window's block at a point, read off its array -/

theorem read_agg (c : Dev nD) (t : Fin cfg1.N) (p : Fin 5000) (k : Fin 128) :
    iblk1 V c 0 t (ix2 p k) = V c main_v47 (ix2 (row t p) k) := by
  obtain ⟨e0, e1, -⟩ := index_facts t
  show V c main_v47 (((cfg1.win 0).blk t).view.emb (ix2 p k)) = V c main_v47 (ix2 (row t p) k)
  refine congrArg (V c main_v47) (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * k.val = k.val; omega

theorem read_h (c : Dev nD) (t : Fin cfg1.N) (p : Fin 5000) (k : Fin 128) :
    iblk1 V c 1 t (ix2 p k) = V c main_v34 (ix2 (row t p) k) := by
  obtain ⟨-, -, e0, e1, -⟩ := index_facts t
  show V c main_v34 (((cfg1.win 1).blk t).view.emb (ix2 p k)) = V c main_v34 (ix2 (row t p) k)
  refine congrArg (V c main_v34) (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * k.val = k.val; omega

theorem read_wl (c : Dev nD) (t : Fin cfg1.N) (k q : Fin 128) :
    iblk1 V c 2 t (ix2 k q) = V c main_v49 (ix2 k q) := by
  obtain ⟨-, -, -, -, e0, e1, -⟩ := index_facts t
  show V c main_v49 (((cfg1.win 2).blk t).view.emb (ix2 k q)) = V c main_v49 (ix2 k q)
  refine congrArg (V c main_v49) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem read_wr (c : Dev nD) (t : Fin cfg1.N) (k q : Fin 128) :
    iblk1 V c 3 t (ix2 k q) = V c main_v51 (ix2 k q) := by
  obtain ⟨-, -, -, -, -, -, e0, e1, -⟩ := index_facts t
  show V c main_v51 (((cfg1.win 3).blk t).view.emb (ix2 k q)) = V c main_v51 (ix2 k q)
  refine congrArg (V c main_v51) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem read_b (c : Dev nD) (t : Fin cfg1.N) (q : Fin 128) :
    iblk1 V c 4 t (ix2 (0 : Fin 1) q) = V c main_v54 (ix2 (0 : Fin 1) q) := by
  obtain ⟨-, -, -, -, -, -, -, -, e0, e1, -⟩ := index_facts t
  show V c main_v54 (((cfg1.win 4).blk t).view.emb (ix2 (0 : Fin 1) q)) = V c main_v54 (ix2 (0 : Fin 1) q)
  refine congrArg (V c main_v54) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The layer's pre-activation of the blocks at point `t`, row `p`, is that of the arrays at row 5000·t + p. -/
theorem lin_blocks (c : Dev nD) (t : Fin cfg1.N) (p : Fin 5000) (q : Fin 128) :
    lin (iblk1 V c 0 t) (iblk1 V c 1 t) (iblk1 V c 2 t) (iblk1 V c 3 t) (iblk1 V c 4 t) p q
      = lin (n := 50000) (V c main_v47) (V c main_v34) (V c main_v49) (V c main_v51) (V c main_v54) (row t p) q := by
  unfold lin
  rw [read_b V c t q]
  refine congrArg₂ (· + ·) (congrArg₂ (· + ·) (Finset.sum_congr rfl fun k _ => ?_) (Finset.sum_congr rfl fun k _ => ?_)) rfl
  · rw [read_agg V c t p k, read_wl V c t k q]
  · rw [read_h V c t p k, read_wr V c t k q]

/-- WHAT POINT `t` WRITES BACK is block `t` of the layer function of the arrays as the launch finds them. -/
theorem flushed_eq (c : Dev nD) (t : Fin cfg1.N) :
    (dat1 V c).flushed 5 t = ((cfg1.win 5).blk t).view.read (Elt Ideal)
      (layer true zero (n := 50000) (V c main_v47) (V c main_v34) (V c main_v49) (V c main_v51) (V c main_v54)) := by
  show (cfg1.win 5).cut (grid1.coords t) ((dat1 V c).after 5 t) = _
  rw [after1_5]
  unfold out1_5
  rw [View.canon_unit_zero offs_zero]
  simp only [View.ld_unit_zero (S := S5000x128) offs_zero, View.ld_unit_zero (S := S128x128) offs_zero, View.ld_unit_zero (S := S1x128) offs_zero]
  funext j
  obtain ⟨p, q, rfl⟩ : ∃ (p : Fin 5000) (q : Fin 128), j = ix2 p q := ⟨j 0, j 1, eq_ix2 j⟩
  obtain ⟨-, -, -, -, -, -, -, -, -, -, e0, e1⟩ := index_facts t
  have hemb : ((cfg1.win 5).blk t).view.emb (ix2 p q) = ix2 (row t p) q := funext fun a => Fin.ext (by
    match a with
    | ⟨0, _⟩ => show win1_5.index t (0 : Fin 2) * 5000 + 1 * p.val = 5000 * t.val + p.val; omega
    | ⟨1, _⟩ => show win1_5.index t (1 : Fin 2) * 128 + 1 * q.val = q.val; omega)
  show k1_pay1 (F := Ideal) (iblk1 V c 0 t) (iblk1 V c 1 t) (iblk1 V c 2 t) (iblk1 V c 3 t) (iblk1 V c 4 t) (ix2 p q)
    = layer true zero (n := 50000) (V c main_v47) (V c main_v34) (V c main_v49) (V c main_v51) (V c main_v54) (((cfg1.win 5).blk t).view.emb (ix2 p q))
  rw [hemb, layer_relu_ix2, ← lin_blocks V c t p q]
  exact Body.pay1_at (iblk1 V c 0 t) (iblk1 V c 1 t) (iblk1 V c 2 t) (iblk1 V c 3 t) (iblk1 V c 4 t) p q

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v55).slice (win1_5.rect t)).set ↔ _
  rw [View.set_slice_whole, Rect.mem_set_unit]
  exact Iff.rfl

/-- Every row is in the block of the point 5000 divides it into. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  have ht : (i 0).val / 5000 < cfg1.N := by show (i 0).val / 5000 < grid1.N; omega
  obtain ⟨-, -, -, -, -, -, -, -, -, -, e0, e1⟩ := index_facts ⟨(i 0).val / 5000, ht⟩
  have e0' : win1_5.index ⟨(i 0).val / 5000, ht⟩ (0 : Fin 2) = (i 0).val / 5000 := e0
  refine ⟨⟨(i 0).val / 5000, ht⟩, flush1_5 _, ?_⟩
  rw [mem_blk]
  intro a
  match a with
  | ⟨0, _⟩ => show win1_5.index ⟨(i 0).val / 5000, ht⟩ (0 : Fin 2) * 5000 ≤ (i 0).val ∧ (i 0).val < win1_5.index ⟨(i 0).val / 5000, ht⟩ (0 : Fin 2) * 5000 + 5000; omega
  | ⟨1, _⟩ => show win1_5.index ⟨(i 0).val / 5000, ht⟩ (1 : Fin 2) * 128 ≤ (i 1).val ∧ (i 1).val < win1_5.index ⟨(i 0).val / 5000, ht⟩ (1 : Fin 2) * 128 + 128; omega

/-- THE OUTPUT ARRAY after the launch: the layer function of the five input arrays as the launch finds them. -/
theorem final (c : Dev nD) :
    (dat1 V c).arrAt 5 cfg1.N
      = layer true zero (n := 50000) (V c main_v47) (V c main_v34) (V c main_v49) (V c main_v51) (V c main_v54) :=
  (dat1 V c).arrAt_eq_of_cover 5 _ (fun t _ => flushed_eq V c t) cover

end Cert.KernelIdeal.Region1

end
-- ==== Proof.Region2.lean ====
/- Launch 2 of the dense layer, as one function of the arrays it finds.

   The grid has ten points; point `t` reads rows 5000·t … 5000·t + 4999 of the aggregated features and of the node
   features, the whole of both weight matrices and of the bias row, and writes back the same rows of the output.  Each
   point's block of the output is therefore the block of ONE whole-array function, `Cert.Sage.layer` of the five input
   arrays, and the ten blocks cover the 50000 rows: the output array ends at that function. -/
import proofs.«109006_j65773129171089_1_alg».proof.Proof.Gen.KernelIdeal.Frame
import proofs.«109006_j65773129171089_1_alg».proof.Proof.KPayload

set_option maxRecDepth 16384

noncomputable section

namespace Cert.KernelIdeal.Region2

open Cert.KernelIdeal Cert.KernelIdeal.Gen Idealize.ShloMosaic Idealize.ShloMosaic.TcCoe Idealize.ShloMosaic.ValueIdx Cert.Sage
open Idealize.ShloMosaic.Pipeline (Dat Cfg Window)

variable (V : (c : Dev nD) → (b : Ref sig .tc) → Buf (Elt Ideal) ((c : Thread nD τ).loc b))

/-- The float zero the first two layers clamp at. -/
abbrev zero : EReal := Ideal.ofBits .f32 0x00000000#32

theorem offs_zero : (![0, 0] : Fin 2 → Nat) = fun _ => 0 := funext fun a => by fin_cases a <;> rfl

/-- The printed index maps over the grid: the row windows (two inputs and the output) are at block `t` of the rows
    and block 0 of the columns; the weights and the bias stay at block 0. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block is row 5000·t + p of the array. -/
def row (t : Fin cfg2.N) (p : Fin 5000) : Fin 50000 :=
  ⟨5000 * t.val + p.val, by have ht : t.val < grid2.N := t.isLt; have hN : grid2.N = 10 := N_2; have hp := p.isLt; omega⟩

/-! ## Each window's block at a point, read off its array -/

theorem read_agg (c : Dev nD) (t : Fin cfg2.N) (p : Fin 5000) (k : Fin 128) :
    iblk2 V c 0 t (ix2 p k) = V c main_v68 (ix2 (row t p) k) := by
  obtain ⟨e0, e1, -⟩ := index_facts t
  show V c main_v68 (((cfg2.win 0).blk t).view.emb (ix2 p k)) = V c main_v68 (ix2 (row t p) k)
  refine congrArg (V c main_v68) (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * k.val = k.val; omega

theorem read_h (c : Dev nD) (t : Fin cfg2.N) (p : Fin 5000) (k : Fin 128) :
    iblk2 V c 1 t (ix2 p k) = V c main_v55 (ix2 (row t p) k) := by
  obtain ⟨-, -, e0, e1, -⟩ := index_facts t
  show V c main_v55 (((cfg2.win 1).blk t).view.emb (ix2 p k)) = V c main_v55 (ix2 (row t p) k)
  refine congrArg (V c main_v55) (funext fun a => Fin.ext ?_)
  match a with
  | ⟨0, _⟩ => show win2_1.index t (0 : Fin 2) * 5000 + 1 * p.val = 5000 * t.val + p.val; omega
  | ⟨1, _⟩ => show win2_1.index t (1 : Fin 2) * 128 + 1 * k.val = k.val; omega

theorem read_wl (c : Dev nD) (t : Fin cfg2.N) (k q : Fin 128) :
    iblk2 V c 2 t (ix2 k q) = V c main_v70 (ix2 k q) := by
  obtain ⟨-, -, -, -, e0, e1, -⟩ := index_facts t
  show V c main_v70 (((cfg2.win 2).blk t).view.emb (ix2 k q)) = V c main_v70 (ix2 k q)
  refine congrArg (V c main_v70) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

theorem read_wr (c : Dev nD) (t : Fin cfg2.N) (k q : Fin 128) :
    iblk2 V c 3 t (ix2 k q) = V c main_v72 (ix2 k q) := by
  obtain ⟨-, -, -, -, -, -, e0, e1, -⟩ := index_facts t
  show V c main_v72 (((cfg2.win 3).blk t).view.emb (ix2 k q)) = V c main_v72 (ix2 k q)
  refine congrArg (V c main_v72) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

theorem read_b (c : Dev nD) (t : Fin cfg2.N) (q : Fin 128) :
    iblk2 V c 4 t (ix2 (0 : Fin 1) q) = V c main_v75 (ix2 (0 : Fin 1) q) := by
  obtain ⟨-, -, -, -, -, -, -, -, e0, e1, -⟩ := index_facts t
  show V c main_v75 (((cfg2.win 4).blk t).view.emb (ix2 (0 : Fin 1) q)) = V c main_v75 (ix2 (0 : Fin 1) q)
  refine congrArg (V c main_v75) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- The layer's pre-activation of the blocks at point `t`, row `p`, is that of the arrays at row 5000·t + p. -/
theorem lin_blocks (c : Dev nD) (t : Fin cfg2.N) (p : Fin 5000) (q : Fin 128) :
    lin (iblk2 V c 0 t) (iblk2 V c 1 t) (iblk2 V c 2 t) (iblk2 V c 3 t) (iblk2 V c 4 t) p q
      = lin (n := 50000) (V c main_v68) (V c main_v55) (V c main_v70) (V c main_v72) (V c main_v75) (row t p) q := by
  unfold lin
  rw [read_b V c t q]
  refine congrArg₂ (· + ·) (congrArg₂ (· + ·) (Finset.sum_congr rfl fun k _ => ?_) (Finset.sum_congr rfl fun k _ => ?_)) rfl
  · rw [read_agg V c t p k, read_wl V c t k q]
  · rw [read_h V c t p k, read_wr V c t k q]

/-- WHAT POINT `t` WRITES BACK is block `t` of the layer function of the arrays as the launch finds them. -/
theorem flushed_eq (c : Dev nD) (t : Fin cfg2.N) :
    (dat2 V c).flushed 5 t = ((cfg2.win 5).blk t).view.read (Elt Ideal)
      (layer false zero (n := 50000) (V c main_v68) (V c main_v55) (V c main_v70) (V c main_v72) (V c main_v75)) := by
  show (cfg2.win 5).cut (grid2.coords t) ((dat2 V c).after 5 t) = _
  rw [after2_5]
  unfold out2_5
  rw [View.canon_unit_zero offs_zero]
  simp only [View.ld_unit_zero (S := S5000x128) offs_zero, View.ld_unit_zero (S := S128x128) offs_zero, View.ld_unit_zero (S := S1x128) offs_zero]
  funext j
  obtain ⟨p, q, rfl⟩ : ∃ (p : Fin 5000) (q : Fin 128), j = ix2 p q := ⟨j 0, j 1, eq_ix2 j⟩
  obtain ⟨-, -, -, -, -, -, -, -, -, -, e0, e1⟩ := index_facts t
  have hemb : ((cfg2.win 5).blk t).view.emb (ix2 p q) = ix2 (row t p) q := funext fun a => Fin.ext (by
    match a with
    | ⟨0, _⟩ => show win2_5.index t (0 : Fin 2) * 5000 + 1 * p.val = 5000 * t.val + p.val; omega
    | ⟨1, _⟩ => show win2_5.index t (1 : Fin 2) * 128 + 1 * q.val = q.val; omega)
  show k2_pay1 (F := Ideal) (iblk2 V c 0 t) (iblk2 V c 1 t) (iblk2 V c 2 t) (iblk2 V c 3 t) (iblk2 V c 4 t) (ix2 p q)
    = layer false zero (n := 50000) (V c main_v68) (V c main_v55) (V c main_v70) (V c main_v72) (V c main_v75) (((cfg2.win 5).blk t).view.emb (ix2 p q))
  rw [hemb, layer_lin_ix2, ← lin_blocks V c t p q]
  exact Body.pay2_at (iblk2 V c 0 t) (iblk2 V c 1 t) (iblk2 V c 2 t) (iblk2 V c 3 t) (iblk2 V c 4 t) p q

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v76).slice (win2_5.rect t)).set ↔ _
  rw [View.set_slice_whole, Rect.mem_set_unit]
  exact Iff.rfl

/-- Every row is in the block of the point 5000 divides it into. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  have ht : (i 0).val / 5000 < cfg2.N := by show (i 0).val / 5000 < grid2.N; omega
  obtain ⟨-, -, -, -, -, -, -, -, -, -, e0, e1⟩ := index_facts ⟨(i 0).val / 5000, ht⟩
  have e0' : win2_5.index ⟨(i 0).val / 5000, ht⟩ (0 : Fin 2) = (i 0).val / 5000 := e0
  refine ⟨⟨(i 0).val / 5000, ht⟩, flush2_5 _, ?_⟩
  rw [mem_blk]
  intro a
  match a with
  | ⟨0, _⟩ => show win2_5.index ⟨(i 0).val / 5000, ht⟩ (0 : Fin 2) * 5000 ≤ (i 0).val ∧ (i 0).val < win2_5.index ⟨(i 0).val / 5000, ht⟩ (0 : Fin 2) * 5000 + 5000; omega
  | ⟨1, _⟩ => show win2_5.index ⟨(i 0).val / 5000, ht⟩ (1 : Fin 2) * 128 ≤ (i 1).val ∧ (i 1).val < win2_5.index ⟨(i 0).val / 5000, ht⟩ (1 : Fin 2) * 128 + 128; omega

/-- THE OUTPUT ARRAY after the launch: the layer function of the five input arrays as the launch finds them. -/
theorem final (c : Dev nD) :
    (dat2 V c).arrAt 5 cfg2.N
      = layer false zero (n := 50000) (V c main_v68) (V c main_v55) (V c main_v70) (V c main_v72) (V c main_v75) :=
  (dat2 V c).arrAt_eq_of_cover 5 _ (fun t _ => flushed_eq V c t) cover

end Cert.KernelIdeal.Region2

end
-- ==== Proof.WeightSpec.lean ====
/- The layer's weight matrices and bias row, cut out of the stacked parameters.

   The three layers' weights arrive stacked as a 3 × 128 × 128 array `W` (layer, output column, input column) and the
   biases as a 3 × 128 array.  Layer `l` multiplies by the transpose of its slice, so the matrix it contracts with —
   contracted index first — is `wOf l W` with entry `[k, q] = W[l, q, k]`, and its bias row is `bOf l B` with entry
   `[0, q] = B[l, q]`.  One program transposes the stack and then slices, the other slices and then transposes: the
   same entries. -/
import Idealize.ShloMosaic.Lib.ValueIdx
import Idealize.ShloMosaic.PureOps.Ideal.Laws

noncomputable section

namespace Cert.Sage

open Idealize.ShloMosaic Idealize.ShloMosaic.ValueIdx

/-- The float zero the first two layers clamp at. -/
abbrev fzero : EReal := Ideal.ofBits .f32 0x00000000#32

/-- Layer `l`'s matrix, contracted index first. -/
def wOf (l : Fin 3) (W : (⟨3, ![3, 128, 128]⟩ : Shape).Idx → EReal) : (⟨2, ![128, 128]⟩ : Shape).Idx → EReal :=
  fun i => W (ix3 l (i 1) (i 0))

/-- Layer `l`'s bias row. -/
def bOf (l : Fin 3) (B : (⟨2, ![3, 128]⟩ : Shape).Idx → EReal) : (⟨2, ![1, 128]⟩ : Shape).Idx → EReal :=
  fun i => B (ix2 l (i 1))

theorem wOf_ix2 (l : Fin 3) (W : (⟨3, ![3, 128, 128]⟩ : Shape).Idx → EReal) (k q : Fin 128) :
    wOf l W (ix2 k q) = W (ix3 l q k) := rfl

theorem bOf_ix2 (l : Fin 3) (B : (⟨2, ![3, 128]⟩ : Shape).Idx → EReal) (z : Fin 1) (q : Fin 128) :
    bOf l B (ix2 z q) = B (ix2 l q) := rfl

end Cert.Sage

end
-- ==== Proof.KLayout.lean ====
/- The kernel program's weight and bias operands, entry by entry.

   Before the launches the host transposes each weight stack (swapping its last two axes); before launch `l` it slices
   out block `l` and drops the leading unit axis.  The entry `[k, q]` of the result is the stack's `[l, q, k]`:
   `Cert.Sage.wOf l`.  The bias slice is reshaped to a vector and back to a row: `Cert.Sage.bOf l`. -/
import proofs.«109006_j65773129171089_1_alg».proof.Proof.Gen.KernelIdeal
import proofs.«109006_j65773129171089_1_alg».proof.Proof.WeightSpec
import Idealize.ShloMosaic.Lib.Pipeline.Value
import Idealize.ShloMosaic.Lib.ValueIdx

noncomputable section

namespace Cert.KernelIdeal.Layout

open Cert.KernelIdeal Cert.KernelIdeal.Gen Idealize.ShloMosaic Idealize.ShloMosaic.ValueIdx Cert.Sage

/-- A weight stack with its last two axes swapped. -/
def swapped (W : (⟨S3x128x128, .f32⟩ : BufTy).Contents (Elt Ideal)) : (⟨S3x128x128, .f32⟩ : BufTy).Contents (Elt Ideal) :=
  transpose S3x128x128 [0, 2, 1] W transposes_S3x128x128_S3x128x128_0_2_1

theorem swapped_at (W : (⟨S3x128x128, .f32⟩ : BufTy).Contents (Elt Ideal)) (l : Fin 3) (k q : Fin 128) : swapped W (ix3 l k q) = W (ix3 l q k) :=
  transpose_apply [0, 2, 1] W transposes_S3x128x128_S3x128x128_0_2_1 (ix3 l k q) (ix3 l q k) (fun b => match b with
    | ⟨0, _⟩ => rfl
    | ⟨1, _⟩ => rfl
    | ⟨2, _⟩ => rfl)

/-- Block 0 of a stack, as a matrix. -/
def block0 (T : (⟨S3x128x128, .f32⟩ : BufTy).Contents (Elt Ideal)) : (⟨S128x128, .f32⟩ : BufTy).Contents (Elt Ideal) :=
  shapeCast _ (extractStridedSlice S1x128x128 ![0, 0, 0] T slices_S3x128x128_S1x128x128_0_0_0) shapeCasts_S1x128x128_S128x128

theorem block0_at (T : (⟨S3x128x128, .f32⟩ : BufTy).Contents (Elt Ideal)) (k q : Fin 128) : block0 T (ix2 k q) = T (ix3 (0 : Fin 3) k q) := by
  have hk := k.isLt
  have hq := q.isLt
  unfold block0
  refine (shapeCast_apply _ shapeCasts_S1x128x128_S128x128 (ix2 k q) (ix3 (0 : Fin 1) k q)
    (by rewrite [Shape.rowMajor_val_three, Shape.rowMajor_val_two]; show (0 * 128 + k.val) * 128 + q.val = k.val * 128 + q.val; omega)).trans ?_
  exact extractStridedSlice_apply ![0, 0, 0] T slices_S3x128x128_S1x128x128_0_0_0 (ix3 (0 : Fin 1) k q) (ix3 (0 : Fin 3) k q) (fun a => match a with
    | ⟨0, _⟩ => by show (0 : Nat) = 0 + 0; rfl
    | ⟨1, _⟩ => by show k.val = 0 + k.val; omega
    | ⟨2, _⟩ => by show q.val = 0 + q.val; omega)

/-- Launch 0's matrix operand: `wOf 0` of the stack. -/
theorem block0_swapped (W : (⟨S3x128x128, .f32⟩ : BufTy).Contents (Elt Ideal)) : block0 (swapped W) = wOf 0 W := by
  funext i
  obtain ⟨k, q, rfl⟩ : ∃ (k q : Fin 128), i = ix2 k q := ⟨i 0, i 1, eq_ix2 i⟩
  rw [block0_at, swapped_at, wOf_ix2]

/-- Row 0 of the biases, reshaped to a vector and back to a row. -/
def biasRow0 (B : (⟨S3x128, .f32⟩ : BufTy).Contents (Elt Ideal)) : (⟨S1x128, .f32⟩ : BufTy).Contents (Elt Ideal) :=
  shapeCast _ (shapeCast _ (extractStridedSlice S1x128 ![0, 0] B slices_S3x128_S1x128_0_0) shapeCasts_S1x128_S128) shapeCasts_S128_S1x128

/-- Launch 0's bias operand: `bOf 0` of the biases. -/
theorem biasRow0_eq (B : (⟨S3x128, .f32⟩ : BufTy).Contents (Elt Ideal)) : biasRow0 B = bOf 0 B := by
  funext i
  obtain ⟨z, q, rfl⟩ : ∃ (z : Fin 1) (q : Fin 128), i = ix2 z q := ⟨i 0, i 1, eq_ix2 i⟩
  have hq := q.isLt
  have hz : z.val = 0 := by have := z.isLt; omega
  rw [bOf_ix2]
  unfold biasRow0
  refine (shapeCast_apply _ shapeCasts_S128_S1x128 (ix2 z q) (ix1 q)
    (by rewrite [Shape.rowMajor_val_one, Shape.rowMajor_val_two]; show q.val = z.val * 128 + q.val; omega)).trans ?_
  refine (shapeCast_apply _ shapeCasts_S1x128_S128 (ix1 q) (ix2 (0 : Fin 1) q)
    (by rewrite [Shape.rowMajor_val_two, Shape.rowMajor_val_one]; show 0 * 128 + q.val = q.val; omega)).trans ?_
  exact extractStridedSlice_apply ![0, 0] B slices_S3x128_S1x128_0_0 (ix2 (0 : Fin 1) q) (ix2 (0 : Fin 3) q) (fun a => match a with
    | ⟨0, _⟩ => by show (0 : Nat) = 0 + 0; rfl
    | ⟨1, _⟩ => by show q.val = 0 + q.val; omega)

/-- Block 1 of a stack, as a matrix. -/
def block1 (T : (⟨S3x128x128, .f32⟩ : BufTy).Contents (Elt Ideal)) : (⟨S128x128, .f32⟩ : BufTy).Contents (Elt Ideal) :=
  shapeCast _ (extractStridedSlice S1x128x128 ![1, 0, 0] T slices_S3x128x128_S1x128x128_1_0_0) shapeCasts_S1x128x128_S128x128

theorem block1_at (T : (⟨S3x128x128, .f32⟩ : BufTy).Contents (Elt Ideal)) (k q : Fin 128) : block1 T (ix2 k q) = T (ix3 (1 : Fin 3) k q) := by
  have hk := k.isLt
  have hq := q.isLt
  unfold block1
  refine (shapeCast_apply _ shapeCasts_S1x128x128_S128x128 (ix2 k q) (ix3 (0 : Fin 1) k q)
    (by rewrite [Shape.rowMajor_val_three, Shape.rowMajor_val_two]; show (0 * 128 + k.val) * 128 + q.val = k.val * 128 + q.val; omega)).trans ?_
  exact extractStridedSlice_apply ![1, 0, 0] T slices_S3x128x128_S1x128x128_1_0_0 (ix3 (0 : Fin 1) k q) (ix3 (1 : Fin 3) k q) (fun a => match a with
    | ⟨0, _⟩ => by show (1 : Nat) = 1 + 0; rfl
    | ⟨1, _⟩ => by show k.val = 0 + k.val; omega
    | ⟨2, _⟩ => by show q.val = 0 + q.val; omega)

/-- Launch 1's matrix operand: `wOf 1` of the stack. -/
theorem block1_swapped (W : (⟨S3x128x128, .f32⟩ : BufTy).Contents (Elt Ideal)) : block1 (swapped W) = wOf 1 W := by
  funext i
  obtain ⟨k, q, rfl⟩ : ∃ (k q : Fin 128), i = ix2 k q := ⟨i 0, i 1, eq_ix2 i⟩
  rw [block1_at, swapped_at, wOf_ix2]

/-- Row 1 of the biases, reshaped to a vector and back to a row. -/
def biasRow1 (B : (⟨S3x128, .f32⟩ : BufTy).Contents (Elt Ideal)) : (⟨S1x128, .f32⟩ : BufTy).Contents (Elt Ideal) :=
  shapeCast _ (shapeCast _ (extractStridedSlice S1x128 ![1, 0] B slices_S3x128_S1x128_1_0) shapeCasts_S1x128_S128) shapeCasts_S128_S1x128

/-- Launch 1's bias operand: `bOf 1` of the biases. -/
theorem biasRow1_eq (B : (⟨S3x128, .f32⟩ : BufTy).Contents (Elt Ideal)) : biasRow1 B = bOf 1 B := by
  funext i
  obtain ⟨z, q, rfl⟩ : ∃ (z : Fin 1) (q : Fin 128), i = ix2 z q := ⟨i 0, i 1, eq_ix2 i⟩
  have hq := q.isLt
  have hz : z.val = 0 := by have := z.isLt; omega
  rw [bOf_ix2]
  unfold biasRow1
  refine (shapeCast_apply _ shapeCasts_S128_S1x128 (ix2 z q) (ix1 q)
    (by rewrite [Shape.rowMajor_val_one, Shape.rowMajor_val_two]; show q.val = z.val * 128 + q.val; omega)).trans ?_
  refine (shapeCast_apply _ shapeCasts_S1x128_S128 (ix1 q) (ix2 (0 : Fin 1) q)
    (by rewrite [Shape.rowMajor_val_two, Shape.rowMajor_val_one]; show 0 * 128 + q.val = q.val; omega)).trans ?_
  exact extractStridedSlice_apply ![1, 0] B slices_S3x128_S1x128_1_0 (ix2 (0 : Fin 1) q) (ix2 (1 : Fin 3) q) (fun a => match a with
    | ⟨0, _⟩ => by show (1 : Nat) = 1 + 0; rfl
    | ⟨1, _⟩ => by show q.val = 0 + q.val; omega)

/-- Block 2 of a stack, as a matrix. -/
def block2 (T : (⟨S3x128x128, .f32⟩ : BufTy).Contents (Elt Ideal)) : (⟨S128x128, .f32⟩ : BufTy).Contents (Elt Ideal) :=
  shapeCast _ (extractStridedSlice S1x128x128 ![2, 0, 0] T slices_S3x128x128_S1x128x128_2_0_0) shapeCasts_S1x128x128_S128x128

theorem block2_at (T : (⟨S3x128x128, .f32⟩ : BufTy).Contents (Elt Ideal)) (k q : Fin 128) : block2 T (ix2 k q) = T (ix3 (2 : Fin 3) k q) := by
  have hk := k.isLt
  have hq := q.isLt
  unfold block2
  refine (shapeCast_apply _ shapeCasts_S1x128x128_S128x128 (ix2 k q) (ix3 (0 : Fin 1) k q)
    (by rewrite [Shape.rowMajor_val_three, Shape.rowMajor_val_two]; show (0 * 128 + k.val) * 128 + q.val = k.val * 128 + q.val; omega)).trans ?_
  exact extractStridedSlice_apply ![2, 0, 0] T slices_S3x128x128_S1x128x128_2_0_0 (ix3 (0 : Fin 1) k q) (ix3 (2 : Fin 3) k q) (fun a => match a with
    | ⟨0, _⟩ => by show (2 : Nat) = 2 + 0; rfl
    | ⟨1, _⟩ => by show k.val = 0 + k.val; omega
    | ⟨2, _⟩ => by show q.val = 0 + q.val; omega)

/-- Launch 2's matrix operand: `wOf 2` of the stack. -/
theorem block2_swapped (W : (⟨S3x128x128, .f32⟩ : BufTy).Contents (Elt Ideal)) : block2 (swapped W) = wOf 2 W := by
  funext i
  obtain ⟨k, q, rfl⟩ : ∃ (k q : Fin 128), i = ix2 k q := ⟨i 0, i 1, eq_ix2 i⟩
  rw [block2_at, swapped_at, wOf_ix2]

/-- Row 2 of the biases, reshaped to a vector and back to a row. -/
def biasRow2 (B : (⟨S3x128, .f32⟩ : BufTy).Contents (Elt Ideal)) : (⟨S1x128, .f32⟩ : BufTy).Contents (Elt Ideal) :=
  shapeCast _ (shapeCast _ (extractStridedSlice S1x128 ![2, 0] B slices_S3x128_S1x128_2_0) shapeCasts_S1x128_S128) shapeCasts_S128_S1x128

/-- Launch 2's bias operand: `bOf 2` of the biases. -/
theorem biasRow2_eq (B : (⟨S3x128, .f32⟩ : BufTy).Contents (Elt Ideal)) : biasRow2 B = bOf 2 B := by
  funext i
  obtain ⟨z, q, rfl⟩ : ∃ (z : Fin 1) (q : Fin 128), i = ix2 z q := ⟨i 0, i 1, eq_ix2 i⟩
  have hq := q.isLt
  have hz : z.val = 0 := by have := z.isLt; omega
  rw [bOf_ix2]
  unfold biasRow2
  refine (shapeCast_apply _ shapeCasts_S128_S1x128 (ix2 z q) (ix1 q)
    (by rewrite [Shape.rowMajor_val_one, Shape.rowMajor_val_two]; show q.val = z.val * 128 + q.val; omega)).trans ?_
  refine (shapeCast_apply _ shapeCasts_S1x128_S128 (ix1 q) (ix2 (0 : Fin 1) q)
    (by rewrite [Shape.rowMajor_val_two, Shape.rowMajor_val_one]; show 0 * 128 + q.val = q.val; omega)).trans ?_
  exact extractStridedSlice_apply ![2, 0] B slices_S3x128_S1x128_2_0 (ix2 (0 : Fin 1) q) (ix2 (2 : Fin 3) q) (fun a => match a with
    | ⟨0, _⟩ => by show (2 : Nat) = 2 + 0; rfl
    | ⟨1, _⟩ => by show q.val = 0 + q.val; omega)

end Cert.KernelIdeal.Layout

end
-- ==== Proof.RefLayer.lean ====
/- The reference's layers, read entry by entry.

   The reference computes a layer as (agg · Wlᵀ + bias) + h · Wrᵀ with jnp's `dot_general`, whose entry at the ideal
   values is the plain sum over the contracted index; the transposed slice of the stacked weights is `Cert.Sage.wOf`
   and the broadcast slice of the biases is `Cert.Sage.bOf`.  So each layer is `Cert.Sage.layer` of its operands (the
   three summands regrouped), and the whole reference is: three layers, each fed the neighbour aggregation of the
   previous features, then the mean pool — with the aggregation and the pool kept as the host operations they are. -/
import proofs.«109006_j65773129171089_1_alg».proof.Proof.Gen.ReferenceIdeal.Read
import proofs.«109006_j65773129171089_1_alg».proof.Proof.LayerSpec
import proofs.«109006_j65773129171089_1_alg».proof.Proof.WeightSpec

noncomputable section

namespace Cert.ReferenceIdeal.Layer

open Cert.ReferenceIdeal Cert.ReferenceIdeal.Read Idealize.ShloMosaic Idealize.ShloMosaic.ValueIdx Cert.Sage

/-- jnp's product of a 50000 × 128 array with a 128 × 128 matrix, at row `p` and column `q`. -/
theorem dot_at (y0 : FVec Ideal S50000x128 .f32) (y1 : FVec Ideal S128x128 .f32) (p : Fin 50000) (q : Fin 128) :
    Host.dotGeneral (F := Ideal) (φ₁ := .f32) (φ₂ := .f32) dot_S50000x128_S128x128_S50000x128_1_0_0_1_n_n none y0 y1 (ix2 p q) = ∑ k : Fin 128, y0 (ix2 p k) * y1 (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact lhs_main_v28_0 _ _
    | ⟨1, _⟩ => exact (lhs_main_v28_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (rhs_main_v28_0 _ _).trans hk
    | ⟨1, _⟩ => exact rhs_main_v28_1 _ _)
  rw [el, er]

/-! ## The transposed weight slices and the broadcast bias slices, at an entry -/

theorem wl0_at (x3 : (⟨S3x128x128, .f32⟩ : BufTy).Contents (Elt Ideal)) (k q : Fin 128) :
    val_main_v27 (F := Ideal) x3 (ix2 k q) = wOf 0 x3 (ix2 k q) := by
  rw [val_main_v27_apply, val_main_v26_apply, val_main_v25_apply, wOf_ix2]
  have hk := k.isLt
  have hq := q.isLt
  exact congrArg x3 (funext fun a => Fin.ext (by
    match a with
    | ⟨0, _⟩ => rfl
    | ⟨1, _⟩ => show (q.val * 128 + k.val) / 128 % 128 = q.val; omega
    | ⟨2, _⟩ => show (q.val * 128 + k.val) % 128 = k.val; omega))

theorem wr0_at (x4 : (⟨S3x128x128, .f32⟩ : BufTy).Contents (Elt Ideal)) (k q : Fin 128) :
    val_main_v36 (F := Ideal) x4 (ix2 k q) = wOf 0 x4 (ix2 k q) := by
  rw [val_main_v36_apply, val_main_v35_apply, val_main_v34_apply, wOf_ix2]
  have hk := k.isLt
  have hq := q.isLt
  exact congrArg x4 (funext fun a => Fin.ext (by
    match a with
    | ⟨0, _⟩ => rfl
    | ⟨1, _⟩ => show (q.val * 128 + k.val) / 128 % 128 = q.val; omega
    | ⟨2, _⟩ => show (q.val * 128 + k.val) % 128 = k.val; omega))

theorem b0_at (x5 : (⟨S3x128, .f32⟩ : BufTy).Contents (Elt Ideal)) (p : Fin 50000) (q : Fin 128) :
    val_main_v32 (F := Ideal) x5 (ix2 p q) = bOf 0 x5 (ix2 (0 : Fin 1) q) := by
  rw [val_main_v32_apply, val_main_v31_apply, val_main_v30_apply, val_main_v29_apply, bOf_ix2]
  have hq := q.isLt
  exact congrArg x5 (funext fun a => Fin.ext (by
    match a with
    | ⟨0, _⟩ => rfl
    | ⟨1, _⟩ => show q.val % 128 = q.val; omega))

theorem wl1_at (x3 : (⟨S3x128x128, .f32⟩ : BufTy).Contents (Elt Ideal)) (k q : Fin 128) :
    val_main_v55 (F := Ideal) x3 (ix2 k q) = wOf 1 x3 (ix2 k q) := by
  rw [val_main_v55_apply, val_main_v54_apply, val_main_v53_apply, wOf_ix2]
  have hk := k.isLt
  have hq := q.isLt
  exact congrArg x3 (funext fun a => Fin.ext (by
    match a with
    | ⟨0, _⟩ => rfl
    | ⟨1, _⟩ => show (q.val * 128 + k.val) / 128 % 128 = q.val; omega
    | ⟨2, _⟩ => show (q.val * 128 + k.val) % 128 = k.val; omega))

theorem wr1_at (x4 : (⟨S3x128x128, .f32⟩ : BufTy).Contents (Elt Ideal)) (k q : Fin 128) :
    val_main_v64 (F := Ideal) x4 (ix2 k q) = wOf 1 x4 (ix2 k q) := by
  rw [val_main_v64_apply, val_main_v63_apply, val_main_v62_apply, wOf_ix2]
  have hk := k.isLt
  have hq := q.isLt
  exact congrArg x4 (funext fun a => Fin.ext (by
    match a with
    | ⟨0, _⟩ => rfl
    | ⟨1, _⟩ => show (q.val * 128 + k.val) / 128 % 128 = q.val; omega
    | ⟨2, _⟩ => show (q.val * 128 + k.val) % 128 = k.val; omega))

theorem b1_at (x5 : (⟨S3x128, .f32⟩ : BufTy).Contents (Elt Ideal)) (p : Fin 50000) (q : Fin 128) :
    val_main_v60 (F := Ideal) x5 (ix2 p q) = bOf 1 x5 (ix2 (0 : Fin 1) q) := by
  rw [val_main_v60_apply, val_main_v59_apply, val_main_v58_apply, val_main_v57_apply, bOf_ix2]
  have hq := q.isLt
  exact congrArg x5 (funext fun a => Fin.ext (by
    match a with
    | ⟨0, _⟩ => rfl
    | ⟨1, _⟩ => show q.val % 128 = q.val; omega))

theorem wl2_at (x3 : (⟨S3x128x128, .f32⟩ : BufTy).Contents (Elt Ideal)) (k q : Fin 128) :
    val_main_v83 (F := Ideal) x3 (ix2 k q) = wOf 2 x3 (ix2 k q) := by
  rw [val_main_v83_apply, val_main_v82_apply, val_main_v81_apply, wOf_ix2]
  have hk := k.isLt
  have hq := q.isLt
  exact congrArg x3 (funext fun a => Fin.ext (by
    match a with
    | ⟨0, _⟩ => rfl
    | ⟨1, _⟩ => show (q.val * 128 + k.val) / 128 % 128 = q.val; omega
    | ⟨2, _⟩ => show (q.val * 128 + k.val) % 128 = k.val; omega))

theorem wr2_at (x4 : (⟨S3x128x128, .f32⟩ : BufTy).Contents (Elt Ideal)) (k q : Fin 128) :
    val_main_v92 (F := Ideal) x4 (ix2 k q) = wOf 2 x4 (ix2 k q) := by
  rw [val_main_v92_apply, val_main_v91_apply, val_main_v90_apply, wOf_ix2]
  have hk := k.isLt
  have hq := q.isLt
  exact congrArg x4 (funext fun a => Fin.ext (by
    match a with
    | ⟨0, _⟩ => rfl
    | ⟨1, _⟩ => show (q.val * 128 + k.val) / 128 % 128 = q.val; omega
    | ⟨2, _⟩ => show (q.val * 128 + k.val) % 128 = k.val; omega))

theorem b2_at (x5 : (⟨S3x128, .f32⟩ : BufTy).Contents (Elt Ideal)) (p : Fin 50000) (q : Fin 128) :
    val_main_v88 (F := Ideal) x5 (ix2 p q) = bOf 2 x5 (ix2 (0 : Fin 1) q) := by
  rw [val_main_v88_apply, val_main_v87_apply, val_main_v86_apply, val_main_v85_apply, bOf_ix2]
  have hq := q.isLt
  exact congrArg x5 (funext fun a => Fin.ext (by
    match a with
    | ⟨0, _⟩ => rfl
    | ⟨1, _⟩ => show q.val % 128 = q.val; omega))

/-! ## A layer's three host operations are the layer function -/

theorem dense0_eq (a h : FVec Ideal S50000x128 .f32) (x3 x4 : (⟨S3x128x128, .f32⟩ : BufTy).Contents (Elt Ideal)) (x5 : (⟨S3x128, .f32⟩ : BufTy).Contents (Elt Ideal)) :
    addf (addf (Host.dotGeneral (F := Ideal) (φ₁ := .f32) (φ₂ := .f32) dot_S50000x128_S128x128_S50000x128_1_0_0_1_n_n none a (val_main_v27 (F := Ideal) x3 : FVec Ideal S128x128 .f32)) (val_main_v32 (F := Ideal) x5 : FVec Ideal S50000x128 .f32))
        (Host.dotGeneral (F := Ideal) (φ₁ := .f32) (φ₂ := .f32) dot_S50000x128_S128x128_S50000x128_1_0_0_1_n_n none h (val_main_v36 (F := Ideal) x4 : FVec Ideal S128x128 .f32))
      = layer false fzero (n := 50000) a h (wOf 0 x3) (wOf 0 x4) (bOf 0 x5) := by
  funext i
  obtain ⟨p, q, rfl⟩ : ∃ (p : Fin 50000) (q : Fin 128), i = ix2 p q := ⟨i 0, i 1, eq_ix2 i⟩
  rw [layer_lin_ix2, ← lin_eq_bias_between, addf_apply, addf_apply, dot_at, dot_at, b0_at]
  refine congrArg₂ (· + ·) (congrArg₂ (· + ·) (Finset.sum_congr rfl fun k _ => ?_) rfl) (Finset.sum_congr rfl fun k _ => ?_)
  · rw [wl0_at]
  · rw [wr0_at]

theorem dense1_eq (a h : FVec Ideal S50000x128 .f32) (x3 x4 : (⟨S3x128x128, .f32⟩ : BufTy).Contents (Elt Ideal)) (x5 : (⟨S3x128, .f32⟩ : BufTy).Contents (Elt Ideal)) :
    addf (addf (Host.dotGeneral (F := Ideal) (φ₁ := .f32) (φ₂ := .f32) dot_S50000x128_S128x128_S50000x128_1_0_0_1_n_n none a (val_main_v55 (F := Ideal) x3 : FVec Ideal S128x128 .f32)) (val_main_v60 (F := Ideal) x5 : FVec Ideal S50000x128 .f32))
        (Host.dotGeneral (F := Ideal) (φ₁ := .f32) (φ₂ := .f32) dot_S50000x128_S128x128_S50000x128_1_0_0_1_n_n none h (val_main_v64 (F := Ideal) x4 : FVec Ideal S128x128 .f32))
      = layer false fzero (n := 50000) a h (wOf 1 x3) (wOf 1 x4) (bOf 1 x5) := by
  funext i
  obtain ⟨p, q, rfl⟩ : ∃ (p : Fin 50000) (q : Fin 128), i = ix2 p q := ⟨i 0, i 1, eq_ix2 i⟩
  rw [layer_lin_ix2, ← lin_eq_bias_between, addf_apply, addf_apply, dot_at, dot_at, b1_at]
  refine congrArg₂ (· + ·) (congrArg₂ (· + ·) (Finset.sum_congr rfl fun k _ => ?_) rfl) (Finset.sum_congr rfl fun k _ => ?_)
  · rw [wl1_at]
  · rw [wr1_at]

theorem dense2_eq (a h : FVec Ideal S50000x128 .f32) (x3 x4 : (⟨S3x128x128, .f32⟩ : BufTy).Contents (Elt Ideal)) (x5 : (⟨S3x128, .f32⟩ : BufTy).Contents (Elt Ideal)) :
    addf (addf (Host.dotGeneral (F := Ideal) (φ₁ := .f32) (φ₂ := .f32) dot_S50000x128_S128x128_S50000x128_1_0_0_1_n_n none a (val_main_v83 (F := Ideal) x3 : FVec Ideal S128x128 .f32)) (val_main_v88 (F := Ideal) x5 : FVec Ideal S50000x128 .f32))
        (Host.dotGeneral (F := Ideal) (φ₁ := .f32) (φ₂ := .f32) dot_S50000x128_S128x128_S50000x128_1_0_0_1_n_n none h (val_main_v92 (F := Ideal) x4 : FVec Ideal S128x128 .f32))
      = layer false fzero (n := 50000) a h (wOf 2 x3) (wOf 2 x4) (bOf 2 x5) := by
  funext i
  obtain ⟨p, q, rfl⟩ : ∃ (p : Fin 50000) (q : Fin 128), i = ix2 p q := ⟨i 0, i 1, eq_ix2 i⟩
  rw [layer_lin_ix2, ← lin_eq_bias_between, addf_apply, addf_apply, dot_at, dot_at, b2_at]
  refine congrArg₂ (· + ·) (congrArg₂ (· + ·) (Finset.sum_congr rfl fun k _ => ?_) rfl) (Finset.sum_congr rfl fun k _ => ?_)
  · rw [wl2_at]
  · rw [wr2_at]

/-- The clamp the reference applies after the first two layers, at an entry. -/
theorem relu_at (X Z : FVec Ideal S50000x128 .f32) (hZ : ∀ i, Z i = fzero) (i : S50000x128.Idx) :
    maximumf X Z i = max (X i) fzero := by
  rw [maximumf_apply, hZ]

theorem call0_zero (i : S50000x128.Idx) : val_main_call0_v0 (F := Ideal) i = fzero := rfl
theorem call1_zero (i : S50000x128.Idx) : val_main_call1_v0 (F := Ideal) i = fzero := rfl

/-! ## The features after each layer, as functions of the six arguments -/

/-- The mean of the neighbours' features: gather by source, scatter-add by destination, divide by the clamped degree
    — the host operations themselves, as a function of the features and the edge list. -/
abbrev agg (h : (⟨S50000x128, .f32⟩ : BufTy).Contents (Elt Ideal)) (x1 : (⟨S2x800000, .i32⟩ : BufTy).Contents (Elt Ideal)) : (⟨S50000x128, .f32⟩ : BufTy).Contents (Elt Ideal) := val_main_v24 (F := Ideal) h x1

def feat1 (x0 : (⟨S50000x128, .f32⟩ : BufTy).Contents (Elt Ideal)) (x1 : (⟨S2x800000, .i32⟩ : BufTy).Contents (Elt Ideal)) (x3 x4 : (⟨S3x128x128, .f32⟩ : BufTy).Contents (Elt Ideal)) (x5 : (⟨S3x128, .f32⟩ : BufTy).Contents (Elt Ideal)) : (⟨S50000x128, .f32⟩ : BufTy).Contents (Elt Ideal) :=
  layer true fzero (n := 50000) (agg x0 x1) x0 (wOf 0 x3) (wOf 0 x4) (bOf 0 x5)
def feat2 (x0 : (⟨S50000x128, .f32⟩ : BufTy).Contents (Elt Ideal)) (x1 : (⟨S2x800000, .i32⟩ : BufTy).Contents (Elt Ideal)) (x3 x4 : (⟨S3x128x128, .f32⟩ : BufTy).Contents (Elt Ideal)) (x5 : (⟨S3x128, .f32⟩ : BufTy).Contents (Elt Ideal)) : (⟨S50000x128, .f32⟩ : BufTy).Contents (Elt Ideal) :=
  layer true fzero (n := 50000) (agg (feat1 x0 x1 x3 x4 x5) x1) (feat1 x0 x1 x3 x4 x5) (wOf 1 x3) (wOf 1 x4) (bOf 1 x5)
def feat3 (x0 : (⟨S50000x128, .f32⟩ : BufTy).Contents (Elt Ideal)) (x1 : (⟨S2x800000, .i32⟩ : BufTy).Contents (Elt Ideal)) (x3 x4 : (⟨S3x128x128, .f32⟩ : BufTy).Contents (Elt Ideal)) (x5 : (⟨S3x128, .f32⟩ : BufTy).Contents (Elt Ideal)) : (⟨S50000x128, .f32⟩ : BufTy).Contents (Elt Ideal) :=
  layer false fzero (n := 50000) (agg (feat2 x0 x1 x3 x4 x5) x1) (feat2 x0 x1 x3 x4 x5) (wOf 2 x3) (wOf 2 x4) (bOf 2 x5)

/-- The mean pool over each graph's nodes — again the host operations themselves, as a function of the features and
    the graph ids. -/
def pool (h : FVec Ideal S50000x128 .f32) (x2 : (⟨S50000, .i32⟩ : BufTy).Contents (Elt Ideal)) : FVec Ideal S256x128 .f32 :=
  Host.divf (F := Ideal) (Host.scatterAdd (F := Ideal) scatter_S256x128_S50000x1_S50000x128_1_0_0_1 (val_main_v99 (F := Ideal) : FVec Ideal S256x128 .f32) (val_main_v100 (F := Ideal) x2) h : FVec Ideal S256x128 .f32)
    (val_main_v105 (F := Ideal) x2 : FVec Ideal S256x128 .f32)

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 x4 : (⟨S3x128x128, .f32⟩ : BufTy).Contents (Elt Ideal)) (x5 : (⟨S3x128, .f32⟩ : BufTy).Contents (Elt Ideal))

theorem layer_true_apply {n : Nat} (a h : (⟨2, ![n, 128]⟩ : Shape).Idx → EReal) (wl wr : (⟨2, ![128, 128]⟩ : Shape).Idx → EReal)
    (b : (⟨2, ![1, 128]⟩ : Shape).Idx → EReal) (i : (⟨2, ![n, 128]⟩ : Shape).Idx) :
    layer true fzero a h wl wr b i = max (layer false fzero a h wl wr b i) fzero := rfl

theorem stage1 : val_main_v39 (F := Ideal) x0 x1 x3 x4 x5 = feat1 x0 x1 x3 x4 x5 := by
  have e : val_main_v38 (F := Ideal) x0 x1 x3 x4 x5
      = layer false fzero (n := 50000) (agg x0 x1) x0 (wOf 0 x3) (wOf 0 x4) (bOf 0 x5) :=
    (dense0_eq (val_main_v24 (F := Ideal) x0 x1) x0 x3 x4 x5)
  funext i
  unfold val_main_v39 feat1
  rw [relu_at _ _ call0_zero, e, layer_true_apply]

theorem agg1 : val_main_v52 (F := Ideal) x0 x1 x3 x4 x5 = val_main_v24 (F := Ideal) (val_main_v39 (F := Ideal) x0 x1 x3 x4 x5) x1 := by
  unfold val_main_v52 val_main_v24
  unfold val_main_v49 val_main_v21 val_main_v51 val_main_v23
  rfl

theorem stage2 : val_main_v67 (F := Ideal) x0 x1 x3 x4 x5 = feat2 x0 x1 x3 x4 x5 := by
  have e : val_main_v66 (F := Ideal) x0 x1 x3 x4 x5
      = layer false fzero (n := 50000) (agg (feat1 x0 x1 x3 x4 x5) x1) (feat1 x0 x1 x3 x4 x5) (wOf 1 x3) (wOf 1 x4) (bOf 1 x5) := by
    have u : val_main_v66 (F := Ideal) x0 x1 x3 x4 x5
        = addf (addf (Host.dotGeneral (F := Ideal) (φ₁ := .f32) (φ₂ := .f32) dot_S50000x128_S128x128_S50000x128_1_0_0_1_n_n none (val_main_v52 (F := Ideal) x0 x1 x3 x4 x5) (val_main_v55 (F := Ideal) x3 : FVec Ideal S128x128 .f32)) (val_main_v60 (F := Ideal) x5 : FVec Ideal S50000x128 .f32))
            (Host.dotGeneral (F := Ideal) (φ₁ := .f32) (φ₂ := .f32) dot_S50000x128_S128x128_S50000x128_1_0_0_1_n_n none (val_main_v39 (F := Ideal) x0 x1 x3 x4 x5) (val_main_v64 (F := Ideal) x4 : FVec Ideal S128x128 .f32)) := by
      unfold val_main_v66 val_main_v61 val_main_v56 val_main_v65
      rfl
    rw [u, agg1, stage1]
    exact dense1_eq (agg (feat1 x0 x1 x3 x4 x5) x1) (feat1 x0 x1 x3 x4 x5) x3 x4 x5
  funext i
  unfold val_main_v67 feat2
  rw [relu_at _ _ call1_zero, e, layer_true_apply]

theorem agg2 : val_main_v80 (F := Ideal) x0 x1 x3 x4 x5 = val_main_v24 (F := Ideal) (val_main_v67 (F := Ideal) x0 x1 x3 x4 x5) x1 := by
  unfold val_main_v80 val_main_v24
  unfold val_main_v77 val_main_v21 val_main_v79 val_main_v23
  rfl

theorem stage3 : val_main_v94 (F := Ideal) x0 x1 x3 x4 x5 = feat3 x0 x1 x3 x4 x5 := by
  have u : val_main_v94 (F := Ideal) x0 x1 x3 x4 x5
      = addf (addf (Host.dotGeneral (F := Ideal) (φ₁ := .f32) (φ₂ := .f32) dot_S50000x128_S128x128_S50000x128_1_0_0_1_n_n none (val_main_v80 (F := Ideal) x0 x1 x3 x4 x5) (val_main_v83 (F := Ideal) x3 : FVec Ideal S128x128 .f32)) (val_main_v88 (F := Ideal) x5 : FVec Ideal S50000x128 .f32))
          (Host.dotGeneral (F := Ideal) (φ₁ := .f32) (φ₂ := .f32) dot_S50000x128_S128x128_S50000x128_1_0_0_1_n_n none (val_main_v67 (F := Ideal) x0 x1 x3 x4 x5) (val_main_v92 (F := Ideal) x4 : FVec Ideal S128x128 .f32)) := by
    unfold val_main_v94 val_main_v89 val_main_v84 val_main_v93
    rfl
  rw [u, agg2, stage2]
  exact dense2_eq (agg (feat2 x0 x1 x3 x4 x5) x1) (feat2 x0 x1 x3 x4 x5) x3 x4 x5

/-- THE REFERENCE'S RESULT: the pool of the third layer's features. -/
theorem value : val_main_v106 (F := Ideal) x0 x1 x2 x3 x4 x5 = pool (feat3 x0 x1 x3 x4 x5) x2 := by
  rw [← stage3]
  unfold pool val_main_v106 val_main_v101
  rfl

end Cert.ReferenceIdeal.Layer

end
-- ==== Proof.HostK.lean ====
/- The kernel program's buffers at every boundary between its host stretches and its launches.

   Following the generated fold of buffer contents (`Gen.W1` … `Gen.W7`): the first host stretch computes the edge
   endpoints, the inverse degrees, the swapped weight stacks and launch 0's five operands from the arguments; launch
   `l` leaves the layer function of its operands in its output; the next stretch aggregates that output over the
   edges and slices out the next launch's weights and bias, reading the endpoints, inverse degrees and swapped stacks
   that no launch and no later operation overwrites; the last stretch pools launch 2's output.  The aggregation and the
   pool are the same host operations as the reference's, so they are carried as the reference's own functions of
   their inputs and never opened. -/
import proofs.«109006_j65773129171089_1_alg».proof.Proof.Gen.KernelIdeal.Frame
import proofs.«109006_j65773129171089_1_alg».proof.Proof.Region0
import proofs.«109006_j65773129171089_1_alg».proof.Proof.Region1
import proofs.«109006_j65773129171089_1_alg».proof.Proof.Region2
import proofs.«109006_j65773129171089_1_alg».proof.Proof.KLayout
import proofs.«109006_j65773129171089_1_alg».proof.Proof.RefLayer

set_option maxRecDepth 16384

noncomputable section

namespace Cert.KernelIdeal.Host

open Cert.KernelIdeal Cert.KernelIdeal.Gen Idealize.ShloMosaic Idealize.ShloMosaic.TcCoe Idealize.ShloMosaic.StableHlo Cert.Sage
open Cert.KernelIdeal.Layout
open Cert.ReferenceIdeal.Layer (agg feat1 feat2 feat3 pool)

variable (m : (ℓ : Loc nD τ sig) → Buf (Elt Ideal) ℓ) (ρ : Dev nD → PrngReg) (c : Dev nD)

/-! ## After the first host stretch -/

theorem w1_main_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl

theorem w1_main_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

theorem w1_main_v11 : W1 m ρ c (Proc.devRef .tc main_v11) = Cert.ReferenceIdeal.Read.val_main_v11 (F := Ideal) (m ((c : Thread nD τ).loc main_arg1)) := by
  show StableHlo.after hostOps0 (W0 m ρ c) (Proc.devRef .tc main_v11) = _
  after_results_simp
  rfl

theorem w1_main_v12 : W1 m ρ c (Proc.devRef .tc main_v12) = swapped (m ((c : Thread nD τ).loc main_arg3)) := by
  show StableHlo.after hostOps0 (W0 m ρ c) (Proc.devRef .tc main_v12) = _
  after_results_simp
  rfl

theorem w1_main_v13 : W1 m ρ c (Proc.devRef .tc main_v13) = swapped (m ((c : Thread nD τ).loc main_arg4)) := by
  show StableHlo.after hostOps0 (W0 m ρ c) (Proc.devRef .tc main_v13) = _
  after_results_simp
  rfl

theorem w1_main_arg5 : W1 m ρ c (Proc.devRef .tc main_arg5) = (m ((c : Thread nD τ).loc main_arg5)) := by
  show StableHlo.after hostOps0 (W0 m ρ c) (Proc.devRef .tc main_arg5) = _
  after_results_simp

theorem w1_main_arg0 : W1 m ρ c (Proc.devRef .tc main_arg0) = (m ((c : Thread nD τ).loc main_arg0)) := by
  show StableHlo.after hostOps0 (W0 m ρ c) (Proc.devRef .tc main_arg0) = _
  after_results_simp

theorem w1_main_v26 : W1 m ρ c (Proc.devRef .tc main_v26) = agg (m ((c : Thread nD τ).loc main_arg0)) (m ((c : Thread nD τ).loc main_arg1)) := by
  show StableHlo.after hostOps0 (W0 m ρ c) (Proc.devRef .tc main_v26) = _
  after_results_simp
  rfl

theorem w1_main_v28 : W1 m ρ c (Proc.devRef .tc main_v28) = wOf 0 (m ((c : Thread nD τ).loc main_arg3)) := by
  show StableHlo.after hostOps0 (W0 m ρ c) (Proc.devRef .tc main_v28) = _
  after_results_simp
  exact block0_swapped (m ((c : Thread nD τ).loc main_arg3))

theorem w1_main_v30 : W1 m ρ c (Proc.devRef .tc main_v30) = wOf 0 (m ((c : Thread nD τ).loc main_arg4)) := by
  show StableHlo.after hostOps0 (W0 m ρ c) (Proc.devRef .tc main_v30) = _
  after_results_simp
  exact block0_swapped (m ((c : Thread nD τ).loc main_arg4))

theorem w1_main_v33 : W1 m ρ c (Proc.devRef .tc main_v33) = bOf 0 (m ((c : Thread nD τ).loc main_arg5)) := by
  show StableHlo.after hostOps0 (W0 m ρ c) (Proc.devRef .tc main_v33) = _
  after_results_simp
  exact biasRow0_eq (m ((c : Thread nD τ).loc main_arg5))

/-! ## After launch 0 -/

theorem w2_main_v34 : W2 m ρ c (Proc.devRef .tc main_v34) = (feat1 (m ((c : Thread nD τ).loc main_arg0)) (m ((c : Thread nD τ).loc main_arg1)) (m ((c : Thread nD τ).loc main_arg3)) (m ((c : Thread nD τ).loc main_arg4)) (m ((c : Thread nD τ).loc main_arg5))) := by
  have e := (W2_arr m ρ c 5).trans (Region0.final (V1 m ρ) c)
  rw [show V1 m ρ c main_v26 = _ from w1_main_v26 m ρ c, show V1 m ρ c main_arg0 = _ from w1_main_arg0 m ρ c,
    show V1 m ρ c main_v28 = _ from w1_main_v28 m ρ c, show V1 m ρ c main_v30 = _ from w1_main_v30 m ρ c,
    show V1 m ρ c main_v33 = _ from w1_main_v33 m ρ c] at e
  exact e

theorem w2_main_v1 : W2 m ρ c (Proc.devRef .tc main_v1) = Cert.ReferenceIdeal.Read.val_main_v1 (F := Ideal) (m ((c : Thread nD τ).loc main_arg1)) :=
  (W2_of_ne m ρ c main_v1 (by decide)).trans (w1_main_v1 m ρ c)

theorem w2_main_v3 : W2 m ρ c (Proc.devRef .tc main_v3) = Cert.ReferenceIdeal.Read.val_main_v3 (F := Ideal) (m ((c : Thread nD τ).loc main_arg1)) :=
  (W2_of_ne m ρ c main_v3 (by decide)).trans (w1_main_v3 m ρ c)

theorem w2_main_v11 : W2 m ρ c (Proc.devRef .tc main_v11) = Cert.ReferenceIdeal.Read.val_main_v11 (F := Ideal) (m ((c : Thread nD τ).loc main_arg1)) :=
  (W2_of_ne m ρ c main_v11 (by decide)).trans (w1_main_v11 m ρ c)

theorem w2_main_v12 : W2 m ρ c (Proc.devRef .tc main_v12) = swapped (m ((c : Thread nD τ).loc main_arg3)) :=
  (W2_of_ne m ρ c main_v12 (by decide)).trans (w1_main_v12 m ρ c)

theorem w2_main_v13 : W2 m ρ c (Proc.devRef .tc main_v13) = swapped (m ((c : Thread nD τ).loc main_arg4)) :=
  (W2_of_ne m ρ c main_v13 (by decide)).trans (w1_main_v13 m ρ c)

theorem w2_main_arg5 : W2 m ρ c (Proc.devRef .tc main_arg5) = (m ((c : Thread nD τ).loc main_arg5)) :=
  (W2_of_ne m ρ c main_arg5 (by decide)).trans (w1_main_arg5 m ρ c)

/-! ## After host stretch 1 -/

theorem w3_main_v34 : W3 m ρ c (Proc.devRef .tc main_v34) = (feat1 (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps1 (W2 m ρ c) (Proc.devRef .tc main_v34) = _
  after_results_simp
  exact w2_main_v34 m ρ c

theorem w3_main_v47 : W3 m ρ c (Proc.devRef .tc main_v47) = agg (feat1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  show StableHlo.after hostOps1 (W2 m ρ c) (Proc.devRef .tc main_v47) = _
  after_results_simp
  rw [w2_main_v34 m ρ c, w2_main_v1 m ρ c, w2_main_v3 m ρ c, w2_main_v11 m ρ c]
  rfl

theorem w3_main_v49 : W3 m ρ c (Proc.devRef .tc main_v49) = wOf 1 (m ((c : Thread nD τ).loc main_arg3)) := by
  show StableHlo.after hostOps1 (W2 m ρ c) (Proc.devRef .tc main_v49) = _
  after_results_simp
  rw [w2_main_v12 m ρ c]
  exact block1_swapped (m ((c : Thread nD τ).loc main_arg3))

theorem w3_main_v51 : W3 m ρ c (Proc.devRef .tc main_v51) = wOf 1 (m ((c : Thread nD τ).loc main_arg4)) := by
  show StableHlo.after hostOps1 (W2 m ρ c) (Proc.devRef .tc main_v51) = _
  after_results_simp
  rw [w2_main_v13 m ρ c]
  exact block1_swapped (m ((c : Thread nD τ).loc main_arg4))

theorem w3_main_v54 : W3 m ρ c (Proc.devRef .tc main_v54) = bOf 1 (m ((c : Thread nD τ).loc main_arg5)) := by
  show StableHlo.after hostOps1 (W2 m ρ c) (Proc.devRef .tc main_v54) = _
  after_results_simp
  rw [w2_main_arg5 m ρ c]
  exact biasRow1_eq (m ((c : Thread nD τ).loc main_arg5))

theorem w3_main_v1 : W3 m ρ c (Proc.devRef .tc main_v1) = Cert.ReferenceIdeal.Read.val_main_v1 (F := Ideal) (m ((c : Thread nD τ).loc main_arg1)) := by
  show StableHlo.after hostOps1 (W2 m ρ c) (Proc.devRef .tc main_v1) = _
  after_results_simp
  exact w2_main_v1 m ρ c

theorem w3_main_v3 : W3 m ρ c (Proc.devRef .tc main_v3) = Cert.ReferenceIdeal.Read.val_main_v3 (F := Ideal) (m ((c : Thread nD τ).loc main_arg1)) := by
  show StableHlo.after hostOps1 (W2 m ρ c) (Proc.devRef .tc main_v3) = _
  after_results_simp
  exact w2_main_v3 m ρ c

theorem w3_main_v11 : W3 m ρ c (Proc.devRef .tc main_v11) = Cert.ReferenceIdeal.Read.val_main_v11 (F := Ideal) (m ((c : Thread nD τ).loc main_arg1)) := by
  show StableHlo.after hostOps1 (W2 m ρ c) (Proc.devRef .tc main_v11) = _
  after_results_simp
  exact w2_main_v11 m ρ c

theorem w3_main_v12 : W3 m ρ c (Proc.devRef .tc main_v12) = swapped (m ((c : Thread nD τ).loc main_arg3)) := by
  show StableHlo.after hostOps1 (W2 m ρ c) (Proc.devRef .tc main_v12) = _
  after_results_simp
  exact w2_main_v12 m ρ c

theorem w3_main_v13 : W3 m ρ c (Proc.devRef .tc main_v13) = swapped (m ((c : Thread nD τ).loc main_arg4)) := by
  show StableHlo.after hostOps1 (W2 m ρ c) (Proc.devRef .tc main_v13) = _
  after_results_simp
  exact w2_main_v13 m ρ c

theorem w3_main_arg5 : W3 m ρ c (Proc.devRef .tc main_arg5) = (m ((c : Thread nD τ).loc main_arg5)) := by
  show StableHlo.after hostOps1 (W2 m ρ c) (Proc.devRef .tc main_arg5) = _
  after_results_simp
  exact w2_main_arg5 m ρ c

/-! ## After launch 1 -/

theorem w4_main_v55 : W4 m ρ c (Proc.devRef .tc main_v55) = (feat2 (m ((c : Thread nD τ).loc main_arg0)) (m ((c : Thread nD τ).loc main_arg1)) (m ((c : Thread nD τ).loc main_arg3)) (m ((c : Thread nD τ).loc main_arg4)) (m ((c : Thread nD τ).loc main_arg5))) := by
  have e := (W4_arr m ρ c 5).trans (Region1.final (V3 m ρ) c)
  rw [show V3 m ρ c main_v47 = _ from w3_main_v47 m ρ c, show V3 m ρ c main_v34 = _ from w3_main_v34 m ρ c,
    show V3 m ρ c main_v49 = _ from w3_main_v49 m ρ c, show V3 m ρ c main_v51 = _ from w3_main_v51 m ρ c,
    show V3 m ρ c main_v54 = _ from w3_main_v54 m ρ c] at e
  exact e

theorem w4_main_v1 : W4 m ρ c (Proc.devRef .tc main_v1) = Cert.ReferenceIdeal.Read.val_main_v1 (F := Ideal) (m ((c : Thread nD τ).loc main_arg1)) :=
  (W4_of_ne m ρ c main_v1 (by decide)).trans (w3_main_v1 m ρ c)

theorem w4_main_v3 : W4 m ρ c (Proc.devRef .tc main_v3) = Cert.ReferenceIdeal.Read.val_main_v3 (F := Ideal) (m ((c : Thread nD τ).loc main_arg1)) :=
  (W4_of_ne m ρ c main_v3 (by decide)).trans (w3_main_v3 m ρ c)

theorem w4_main_v11 : W4 m ρ c (Proc.devRef .tc main_v11) = Cert.ReferenceIdeal.Read.val_main_v11 (F := Ideal) (m ((c : Thread nD τ).loc main_arg1)) :=
  (W4_of_ne m ρ c main_v11 (by decide)).trans (w3_main_v11 m ρ c)

theorem w4_main_v12 : W4 m ρ c (Proc.devRef .tc main_v12) = swapped (m ((c : Thread nD τ).loc main_arg3)) :=
  (W4_of_ne m ρ c main_v12 (by decide)).trans (w3_main_v12 m ρ c)

theorem w4_main_v13 : W4 m ρ c (Proc.devRef .tc main_v13) = swapped (m ((c : Thread nD τ).loc main_arg4)) :=
  (W4_of_ne m ρ c main_v13 (by decide)).trans (w3_main_v13 m ρ c)

theorem w4_main_arg5 : W4 m ρ c (Proc.devRef .tc main_arg5) = (m ((c : Thread nD τ).loc main_arg5)) :=
  (W4_of_ne m ρ c main_arg5 (by decide)).trans (w3_main_arg5 m ρ c)

/-! ## After host stretch 2 -/

theorem w5_main_v55 : W5 m ρ c (Proc.devRef .tc main_v55) = (feat2 (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps2 (W4 m ρ c) (Proc.devRef .tc main_v55) = _
  after_results_simp
  exact w4_main_v55 m ρ c

theorem w5_main_v68 : W5 m ρ c (Proc.devRef .tc main_v68) = agg (feat2 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  show StableHlo.after hostOps2 (W4 m ρ c) (Proc.devRef .tc main_v68) = _
  after_results_simp
  rw [w4_main_v55 m ρ c, w4_main_v1 m ρ c, w4_main_v3 m ρ c, w4_main_v11 m ρ c]
  rfl

theorem w5_main_v70 : W5 m ρ c (Proc.devRef .tc main_v70) = wOf 2 (m ((c : Thread nD τ).loc main_arg3)) := by
  show StableHlo.after hostOps2 (W4 m ρ c) (Proc.devRef .tc main_v70) = _
  after_results_simp
  rw [w4_main_v12 m ρ c]
  exact block2_swapped (m ((c : Thread nD τ).loc main_arg3))

theorem w5_main_v72 : W5 m ρ c (Proc.devRef .tc main_v72) = wOf 2 (m ((c : Thread nD τ).loc main_arg4)) := by
  show StableHlo.after hostOps2 (W4 m ρ c) (Proc.devRef .tc main_v72) = _
  after_results_simp
  rw [w4_main_v13 m ρ c]
  exact block2_swapped (m ((c : Thread nD τ).loc main_arg4))

theorem w5_main_v75 : W5 m ρ c (Proc.devRef .tc main_v75) = bOf 2 (m ((c : Thread nD τ).loc main_arg5)) := by
  show StableHlo.after hostOps2 (W4 m ρ c) (Proc.devRef .tc main_v75) = _
  after_results_simp
  rw [w4_main_arg5 m ρ c]
  exact biasRow2_eq (m ((c : Thread nD τ).loc main_arg5))

/-! ## After launch 2, and the pool -/

theorem w6_main_v76 : W6 m ρ c (Proc.devRef .tc main_v76) = (feat3 (m ((c : Thread nD τ).loc main_arg0)) (m ((c : Thread nD τ).loc main_arg1)) (m ((c : Thread nD τ).loc main_arg3)) (m ((c : Thread nD τ).loc main_arg4)) (m ((c : Thread nD τ).loc main_arg5))) := by
  have e := (W6_arr m ρ c 5).trans (Region2.final (V5 m ρ) c)
  rw [show V5 m ρ c main_v68 = _ from w5_main_v68 m ρ c, show V5 m ρ c main_v55 = _ from w5_main_v55 m ρ c,
    show V5 m ρ c main_v70 = _ from w5_main_v70 m ρ c, show V5 m ρ c main_v72 = _ from w5_main_v72 m ρ c,
    show V5 m ρ c main_v75 = _ from w5_main_v75 m ρ c] at e
  exact e

/-- The graph ids reach the last stretch as launched: nothing writes an argument. -/
theorem w6_main_arg2 : W6 m ρ c (Proc.devRef .tc main_arg2) = (m ((c : Thread nD τ).loc main_arg2)) := by
  have h : StableHlo.after hostOps3 (W6 m ρ c) (Proc.devRef .tc main_arg2) = (m ((c : Thread nD τ).loc main_arg2)) := W7_main_arg2 m ρ c
  have e : StableHlo.after hostOps3 (W6 m ρ c) (Proc.devRef .tc main_arg2) = W6 m ρ c (Proc.devRef .tc main_arg2) := by
    after_results_simp
  exact e.symm.trans h

/-- THE KERNEL PROGRAM'S RESULT: the pool of the third launch's output. -/
theorem w7_main_v88 : W7 m ρ c (Proc.devRef .tc main_v88) = pool (feat3 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg2)) := by
  show StableHlo.after hostOps3 (W6 m ρ c) (Proc.devRef .tc main_v88) = _
  after_results_simp
  rw [w6_main_v76 m ρ c, w6_main_arg2 m ρ c]
  rfl

end Cert.KernelIdeal.Host

end
-- ==== Proof.lean ====
/- Three GraphSAGE layers and a mean pool: the Pallas program against its jnp reference, over the extended reals.

   Both programs aggregate the neighbours' features over the edge list on the host (gather by source, scatter-add by
   destination, times the inverse clamped degree), apply a dense layer  agg · Wlᵀ + h · Wrᵀ + b  (clamped at zero after
   the first two), three times, and pool the last features over each graph.  The kernel program runs the dense layer
   as a launch over ten blocks of 5000 rows with the matrix unit; the reference uses jnp's products.

   The proof: each launch's output array is ONE function of its five operand arrays, `Cert.Sage.layer` (Region0–2,
   over the body read at an entry in KPayload); the reference's three host operations per layer are the same function
   (RefLayer: the two programs group the three summands differently, and addition of extended reals is commutative
   and associative — no finiteness is used); the weight and bias operands are the same entries of the stacked
   parameters whether one transposes and then slices or slices and then transposes (KLayout, RefLayer); and the
   aggregation and the pool are the SAME host operations in both programs, so they are carried as one function of
   their inputs and never opened (HostK follows the kernel program's buffers from boundary to boundary).  The frames
   are the generated ones; the idealization rewrote nothing, so `preserves` is trivial. -/
import proofs.«109006_j65773129171089_1_alg».proof.Defs
import proofs.«109006_j65773129171089_1_alg».proof.Proof.Gen.Kernel
import proofs.«109006_j65773129171089_1_alg».proof.Proof.Gen.Kernel.Skeleton
import proofs.«109006_j65773129171089_1_alg».proof.Proof.Gen.Kernel.Launch
import proofs.«109006_j65773129171089_1_alg».proof.Proof.Gen.Kernel.Points
import proofs.«109006_j65773129171089_1_alg».proof.Proof.Gen.Kernel.Frame
import proofs.«109006_j65773129171089_1_alg».proof.Proof.Gen.KernelIdeal
import proofs.«109006_j65773129171089_1_alg».proof.Proof.Gen.KernelIdeal.Skeleton
import proofs.«109006_j65773129171089_1_alg».proof.Proof.Gen.KernelIdeal.Launch
import proofs.«109006_j65773129171089_1_alg».proof.Proof.Gen.KernelIdeal.Points
import proofs.«109006_j65773129171089_1_alg».proof.Proof.Gen.KernelIdeal.Frame
import proofs.«109006_j65773129171089_1_alg».proof.Proof.Gen.ReferenceIdeal
import proofs.«109006_j65773129171089_1_alg».proof.Proof.Gen.Pre_finite_inputs
import proofs.«109006_j65773129171089_1_alg».proof.Proof.Gen.ReferenceIdeal.Run
import proofs.«109006_j65773129171089_1_alg».proof.Proof.Gen.ReferenceIdeal.Read
import proofs.«109006_j65773129171089_1_alg».proof.Proof.KRun
import proofs.«109006_j65773129171089_1_alg».proof.Proof.HostK
import proofs.«109006_j65773129171089_1_alg».proof.Proof.RefLayer
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ
theorem frame_kernelIdeal : Cert.frame_KernelIdeal := fun m ρ _ => Cert.KernelIdeal.Gen.frame m ρ
/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the pool of the third layer's features: the
    kernel program by its buffers followed through the three launches, the reference by its composed term read layer
    by layer. -/
theorem algebraic : Cert.algebraic_KernelIdeal_ReferenceIdeal := by
  intro m ρ m' ρ' _ hagree
  refine ⟨_, Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v106_eq, Cert.ReferenceIdeal.Layer.value, (hagree c).1, (hagree c).2.1, (hagree c).2.2.1,
    (hagree c).2.2.2.1, (hagree c).2.2.2.2.1, (hagree c).2.2.2.2.2]
  exact (Cert.KernelIdeal.Host.w7_main_v88 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
